-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v15_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v15_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256x4096x4 : Shape := ⟨3, ![256, 4096, 4]⟩
abbrev S256x4096x16 : Shape := ⟨3, ![256, 4096, 16]⟩
abbrev S2048 : Shape := ⟨1, ![2048]⟩
abbrev S8192x2048 : Shape := ⟨2, ![8192, 2048]⟩
abbrev S2048x4096 : Shape := ⟨2, ![2048, 4096]⟩
abbrev S4096x4 : Shape := ⟨2, ![4096, 4]⟩
abbrev S4096 : Shape := ⟨1, ![4096]⟩
abbrev S160x4096 : Shape := ⟨2, ![160, 4096]⟩
abbrev S4096x128 : Shape := ⟨2, ![4096, 128]⟩
abbrev S4096x16 : Shape := ⟨2, ![4096, 16]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S256x4096x4 : S_.BroadcastsInDim S256x4096x4 (![] : Fin 0 → Fin S256x4096x4.rank)
  reducesTo_S256x4096x4_S_d0_1_2 : S256x4096x4.ReducesTo [0, 1, 2] S_
  bcast_S_S256x4096x16 : S_.BroadcastsInDim S256x4096x16 (![] : Fin 0 → Fin S256x4096x16.rank)
  reducesTo_S256x4096x16_S_d0_1_2 : S256x4096x16.ReducesTo [0, 1, 2] S_
  bcast_S_S2048 : S_.BroadcastsInDim S2048 (![] : Fin 0 → Fin S2048.rank)
  reducesTo_S2048_S_d0 : S2048.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S4096x4 : S_.BroadcastsInDim S4096x4 (![] : Fin 0 → Fin S4096x4.rank)
  reducesTo_S4096x4_S_d0_1 : S4096x4.ReducesTo [0, 1] S_
  bcast_S_S4096 : S_.BroadcastsInDim S4096 (![] : Fin 0 → Fin S4096.rank)
  reducesTo_S4096_S_d0 : S4096.ReducesTo [0] S_
  bcast_S_S160x4096 : S_.BroadcastsInDim S160x4096 (![] : Fin 0 → Fin S160x4096.rank)
  reducesTo_S160x4096_S_d0_1 : S160x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part3 {F : FTy → Type} [FloatOps F] (main_arg11 : FVec F S4096x16 .f32) (main_arg12 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x16 .f32 := Host.absf main_arg11
  let main_cst_20 : FVec F S_ .f32 := constant S_ .f32 0x7F800000#32
  let main_v55 : FVec F S4096x16 .f32 := broadcastInDim S4096x16 ![] bcast_S_S4096x16 main_cst_20
  let main_v56 : IVec S4096x16 1 := cmpf .olt main_v54 main_v55
  let main_c_21 : IVec S_ 1 := constantI S_ 1 1#1
  let main_v57 : IVec S_ 1 := (fun x v => Host.reduce IntOp.andi x v reducesTo_S4096x16_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S4096 .f32) (main_arg8 : FVec F S160x4096 .f32) (main_arg9 : FVec F S4096x128 .f32) (main_arg10 : FVec F S4096 .f32) (main_arg11 : FVec F S4096x16 .f32) (main_arg12 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S160x4096 .f32 := Host.absf main_arg8
  let main_cst_14 : FVec F S_ .f32 := constant S_ .f32 0x7F800000#32
  let main_v40 : FVec F S160x4096 .f32 := broadcastInDim S160x4096 ![] bcast_S_S160x4096 main_cst_14
  let main_v41 : IVec S160x4096 1 := cmpf .olt main_v39 main_v40
  let main_c_15 : IVec S_ 1 := constantI S_ 1 1#1
  let main_v42 : IVec S_ 1 := (fun x v => Host.reduce IntOp.andi x v reducesTo_S160x4096_S_d0_1 h_S_) main_v41 main_c_15
  let main_v43 : IVec S_ 1 := andi main_v38 main_v42
  let main_v44 : FVec F S4096x128 .f32 := Host.absf main_arg9
  let main_cst_16 : FVec F S_ .f32 := constant S_ .f32 0x7F800000#32
  let main_v45 : FVec F S4096x128 .f32 := broadcastInDim S4096x128 ![] bcast_S_S4096x128 main_cst_16
  let main_v46 : IVec S4096x128 1 := cmpf .olt main_v44 main_v45
  let main_c_17 : IVec S_ 1 := constantI S_ 1 1#1
  let main_v47 : IVec S_ 1 := (fun x v => Host.reduce IntOp.andi x v reducesTo_S4096x128_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S8192x2048 .f32) (main_arg5 : FVec F S2048x4096 .f32) (main_arg6 : FVec F S4096x4 .f32) (main_arg7 : FVec F S4096 .f32) (main_arg8 : FVec F S160x4096 .f32) (main_arg9 : FVec F S4096x128 .f32) (main_arg10 : FVec F S4096 .f32) (main_arg11 : FVec F S4096x16 .f32) (main_arg12 : FVec F S4096 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S4096x4 .f32 := Host.absf main_arg6
  let main_cst_10 : FVec F S_ .f32 := constant S_ .f32 0x7F800000#32
  let main_v30 : FVec F S4096x4 .f32 := broadcastInDim S4096x4 ![] bcast_S_S4096x4 main_cst_10
  let main_v31 : IVec S4096x4 1 := cmpf .olt main_v29 main_v30
  let main_c_11 : IVec S_ 1 := constantI S_ 1 1#1
  let main_v32 : IVec S_ 1 := (fun x v => Host.reduce IntOp.andi x v reducesTo_S4096x4_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S256x2048 .f32) (main_arg1 : FVec F S256x4096x4 .f32) (main_arg2 : FVec F S256x4096x16 .f32) (main_arg3 : FVec F S2048 .f32) (main_arg4 : FVec F S8192x2048 .f32) (main_arg5 : FVec F S2048x4096 .f32) (main_arg6 : FVec F S4096x4 .f32) (main_arg7 : FVec F S4096 .f32) (main_arg8 : FVec F S160x4096 .f32) (main_arg9 : FVec F S4096x128 .f32) (main_arg10 : FVec F S4096 .f32) (main_arg11 : FVec F S4096x16 .f32) (main_arg12 : FVec F S4096 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S256x4096x4 .f32 := Host.absf main_arg1
  let main_cst_0 : FVec F S_ .f32 := constant S_ .f32 0x7F800000#32
  let main_v5 : FVec F S256x4096x4 .f32 := broadcastInDim S256x4096x4 ![] bcast_S_S256x4096x4 main_cst_0
  let main_v6 : IVec S256x4096x4 1 := cmpf .olt main_v4 main_v5
  let main_c_1 : IVec S_ 1 := constantI S_ 1 1#1
  let main_v7 : IVec S_ 1 := (fun x v => Host.reduce IntOp.andi x v reducesTo_S256x4096x4_S_d0_1_2 h_S_) main_v6 main_c_1
  let main_v8 : IVec S_ 1 := andi main_v3 main_v7
  let main_v9 : FVec F S256x4096x16 .f32 := Host.absf main_arg2
  let main_cst_2 : FVec F S_ .f32 := constant S_ .f32 0x7F800000#32
  let main_v10 : FVec F S256x4096x16 .f32 := broadcastInDim S256x4096x16 ![] bcast_S_S256x4096x16 main_cst_2
  let main_v11 : IVec S256x4096x16 1 := cmpf .olt main_v9 main_v10
  let main_c_3 : IVec S_ 1 := constantI S_ 1 1#1
  let main_v12 : IVec S_ 1 := (fun x v => Host.reduce IntOp.andi x v reducesTo_S256x4096x16_S_d0_1_2 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_v13 main_v16
-- ==== Kernel.lean ====
abbrev S256x2048 : Shape := ⟨2, ![256, 2048]⟩
abbrev S256x4096x4 : Shape := ⟨3, ![256, 4096, 4]⟩
abbrev S256x4096x16 : Shape := ⟨3, ![256, 4096, 16]⟩
abbrev S2048 : Shape := ⟨1, ![2048]⟩
abbrev S8192x2048 : Shape := ⟨2, ![8192, 2048]⟩
abbrev S2048x4096 : Shape := ⟨2, ![2048, 4096]⟩
abbrev S4096x4 : Shape := ⟨2, ![4096, 4]⟩
abbrev S4096 : Shape := ⟨1, ![4096]⟩
abbrev S160x4096 : Shape := ⟨2, ![160, 4096]⟩
abbrev S4096x128 : Shape := ⟨2, ![4096, 128]⟩
abbrev S4096x16 : Shape := ⟨2, ![4096, 16]⟩
abbrev S256x8192 : Shape := ⟨2, ![256, 8192]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S1x2048 : Shape := ⟨2, ![1, 2048]⟩
abbrev S256x4096 : Shape := ⟨2, ![256, 4096]⟩
abbrev S64x256 : Shape := ⟨2, ![64, 256]⟩
abbrev S64x256x4 : Shape := ⟨3, ![64, 256, 4]⟩
abbrev S256x4 : Shape := ⟨2, ![256, 4]⟩
abbrev S64x256x1 : Shape := ⟨3, ![64, 256, 1]⟩
abbrev S1x256 : Shape := ⟨2, ![1, 256]⟩
abbrev S4096x160 : Shape := ⟨2, ![4096, 160]⟩
abbrev S256x160 : Shape := ⟨2, ![256, 160]⟩
abbrev S256x128 : Shape := ⟨2, ![256, 128]⟩
abbrev S256x16 : Shape := ⟨2, ![256, 16]⟩
abbrev S128x4096 : Shape := ⟨2, ![128, 4096]⟩
abbrev S1x4096 : Shape := ⟨2, ![1, 4096]⟩
abbrev S_ : Shape := ⟨0, ![]⟩
abbrev S32x256x16 : Shape := ⟨3, ![32, 256, 16]⟩
abbrev S32x256 : Shape := ⟨2, ![32, 256]⟩
abbrev S32x16 : Shape := ⟨2, ![32, 16]⟩
abbrev S32x256x1 : Shape := ⟨3, ![32, 256, 1]⟩
abbrev S1x256x16 : Shape := ⟨3, ![1, 256, 16]⟩
abbrev S32x1x16 : Shape := ⟨3, ![32, 1, 16]⟩
abbrev S512x4096 : Shape := ⟨2, ![512, 4096]⟩
abbrev S256x512 : Shape := ⟨2, ![256, 512]⟩

abbrev nBuf : Space → Nat
  | .hbm => 45
  | .vmem => 43
  | .smem => 0
  | _ => 0

abbrev bufTy : (tb : Table) → Fin (tcTables nBuf tb) → BufTy
  | .hbm, ⟨0, _⟩ => ⟨S256x2048, .f32⟩
  | .hbm, ⟨1, _⟩ => ⟨S256x4096x4, .f32⟩
  | .hbm, ⟨2, _⟩ => ⟨S256x4096x16, .f32⟩
  | .hbm, ⟨3, _⟩ => ⟨S2048, .f32⟩
  | .hbm, ⟨4, _⟩ => ⟨S8192x2048, .f32⟩
  | .hbm, ⟨5, _⟩ => ⟨S2048x4096, .f32⟩
  | .hbm, ⟨6, _⟩ => ⟨S4096x4, .f32⟩
  | .hbm, ⟨7, _⟩ => ⟨S4096, .f32⟩
  | .hbm, ⟨8, _⟩ => ⟨S160x4096, .f32⟩
  | .hbm, ⟨9, _⟩ => ⟨S4096x128, .f32⟩
  | .hbm, ⟨10, _⟩ => ⟨S4096, .f32⟩
  | .hbm, ⟨11, _⟩ => ⟨S4096x16, .f32⟩
  | .hbm, ⟨12, _⟩ => ⟨S4096, .f32⟩
  | .hbm, ⟨13, _⟩ => ⟨S256x8192, .f32⟩
  | .hbm, ⟨14, _⟩ => ⟨S256x4096, .f32⟩
  | .hbm, ⟨15, _⟩ => ⟨S256x4096, .f32⟩
  | .hbm, ⟨16, _⟩ => ⟨S256x4096x4, .f32⟩
  | .hbm, ⟨17, _⟩ => ⟨S256x4096, .f32⟩
  | .hbm, ⟨18, _⟩ => ⟨S4096x160, .f32⟩
  | .hbm, ⟨19, _⟩ => ⟨S256x160, .f32⟩
  | .hbm, ⟨20, _⟩ => ⟨S256x128, .f32⟩
  | .hbm, ⟨21, _⟩ => ⟨S256x16, .f32⟩
  | .hbm, ⟨22, _⟩ => ⟨S256x16, .f32⟩
  | .hbm, ⟨23, _⟩ => ⟨S128x4096, .f32⟩
  | .hbm, ⟨24, _⟩ => ⟨S256x4096, .f32⟩
  | .hbm, ⟨25, _⟩ => ⟨S1x4096, .f32⟩
  | .hbm, ⟨26, _⟩ => ⟨S256x4096, .f32⟩
  | .hbm, ⟨27, _⟩ => ⟨S256x4096, .f32⟩
  | .hbm, ⟨28, _⟩ => ⟨S_, .f32⟩
  | .hbm, ⟨29, _⟩ => ⟨S256x4096, .f32⟩
  | .hbm, ⟨30, _⟩ => ⟨S256x4096, .f32⟩
  | .hbm, ⟨31, _⟩ => ⟨S256x4096, .f32⟩
  | .hbm, ⟨32, _⟩ => ⟨S256x4096, .f32⟩
  | .hbm, ⟨33, _⟩ => ⟨S256x4096, .i1⟩
  | .hbm, ⟨34, _⟩ => ⟨S256x4096, .f32⟩
  | .hbm, ⟨35, _⟩ => ⟨S256x4096, .f32⟩
  | .hbm, ⟨36, _⟩ => ⟨S256x4096, .f32⟩
  | .hbm, ⟨37, _⟩ => ⟨S256x4096, .f32⟩
  | .hbm, ⟨38, _⟩ => ⟨S256x4096, .f32⟩
  | .hbm, ⟨39, _⟩ => ⟨S256x4096, .f32⟩
  | .hbm, ⟨40, _⟩ => ⟨S256x4096, .f32⟩
  | .hbm, ⟨41, _⟩ => ⟨S256x4096, .f32⟩
  | .hbm, ⟨42, _⟩ => ⟨S256x4096x16, .f32⟩
  | .hbm, ⟨43, _⟩ => ⟨S256x4096, .f32⟩
  | .hbm, ⟨44, _⟩ => ⟨S256x2048, .f32⟩
  | .local _ .vmem, ⟨0, _⟩ => ⟨S256x2048, .f32⟩
  | .local _ .vmem, ⟨1, _⟩ => ⟨S2048, .f32⟩
  | .local _ .vmem, ⟨2, _⟩ => ⟨S1024x2048, .f32⟩
  | .local _ .vmem, ⟨3, _⟩ => ⟨S1024x2048, .f32⟩
  | .local _ .vmem, ⟨4, _⟩ => ⟨S256x1024, .f32⟩
  | .local _ .vmem, ⟨5, _⟩ => ⟨S256x1024, .f32⟩
  | .local _ .vmem, ⟨6, _⟩ => ⟨S64x256, .f32⟩
  | .local _ .vmem, ⟨7, _⟩ => ⟨S64x256, .f32⟩
  | .local _ .vmem, ⟨8, _⟩ => ⟨S64x256x4, .f32⟩
  | .local _ .vmem, ⟨9, _⟩ => ⟨S64x256x4, .f32⟩
  | .local _ .vmem, ⟨10, _⟩ => ⟨S256x4, .f32⟩
  | .local _ .vmem, ⟨11, _⟩ => ⟨S256x4, .f32⟩
  | .local _ .vmem, ⟨12, _⟩ => ⟨S256, .f32⟩
  | .local _ .vmem, ⟨13, _⟩ => ⟨S256, .f32⟩
  | .local _ .vmem, ⟨14, _⟩ => ⟨S64x256x4, .f32⟩
  | .local _ .vmem, ⟨15, _⟩ => ⟨S64x256x4, .f32⟩
  | .local _ .vmem, ⟨16, _⟩ => ⟨S64x256, .f32⟩
  | .local _ .vmem, ⟨17, _⟩ => ⟨S64x256, .f32⟩
  | .local _ .vmem, ⟨18, _⟩ => ⟨S32x256x16, .f32⟩
  | .local _ .vmem, ⟨19, _⟩ => ⟨S32x256x16, .f32⟩
  | .local _ .vmem, ⟨20, _⟩ => ⟨S32x256, .f32⟩
  | .local _ .vmem, ⟨21, _⟩ => ⟨S32x256, .f32⟩
  | .local _ .vmem, ⟨22, _⟩ => ⟨S32x256, .f32⟩
  | .local _ .vmem, ⟨23, _⟩ => ⟨S32x256, .f32⟩
  | .local _ .vmem, ⟨24, _⟩ => ⟨S32x16, .f32⟩
  | .local _ .vmem, ⟨25, _⟩ => ⟨S32x16, .f32⟩
  | .local _ .vmem, ⟨26, _⟩ => ⟨S32x16, .f32⟩
  | .local _ .vmem, ⟨27, _⟩ => ⟨S32x16, .f32⟩
  | .local _ .vmem, ⟨28, _⟩ => ⟨S32x256, .f32⟩
  | .local _ .vmem, ⟨29, _⟩ => ⟨S32x256, .f32⟩
  | .local _ .vmem, ⟨30, _⟩ => ⟨S256x16, .f32⟩
  | .local _ .vmem, ⟨31, _⟩ => ⟨S256x16, .f32⟩
  | .local _ .vmem, ⟨32, _⟩ => ⟨S256, .f32⟩
  | .local _ .vmem, ⟨33, _⟩ => ⟨S256, .f32⟩
  | .local _ .vmem, ⟨34, _⟩ => ⟨S32x256x16, .f32⟩
  | .local _ .vmem, ⟨35, _⟩ => ⟨S32x256x16, .f32⟩
  | .local _ .vmem, ⟨36, _⟩ => ⟨S32x256, .f32⟩
  | .local _ .vmem, ⟨37, _⟩ => ⟨S32x256, .f32⟩
  | .local _ .vmem, ⟨38, _⟩ => ⟨S256x4096, .f32⟩
  | .local _ .vmem, ⟨39, _⟩ => ⟨S512x4096, .f32⟩
  | .local _ .vmem, ⟨40, _⟩ => ⟨S512x4096, .f32⟩
  | .local _ .vmem, ⟨41, _⟩ => ⟨S256x512, .f32⟩
  | .local _ .vmem, ⟨42, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v14 : Ref sig .tc := ⟨.hbm, 41, rfl⟩
abbrev main_v15_0 : Ref sig .tc := ⟨.hbm, 42, rfl⟩
abbrev main_v15_1 : Ref sig .tc := ⟨.hbm, 43, rfl⟩
abbrev main_v16 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg9_1 : Ref sig .tc := ⟨.vmem, 37, rfl⟩
abbrev cc3_stg0_0 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc2_sem9_0 : DmaSem sig := 36
abbrev cc2_sem9_1 : DmaSem sig := 37
abbrev cc3_sem0_0 : DmaSem sig := 38
abbrev cc3_sem1_0 : DmaSem sig := 39
abbrev cc3_sem1_1 : DmaSem sig := 40
abbrev cc3_sem2_0 : DmaSem sig := 41
abbrev cc3_sem2_1 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x256x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S64x256x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S32x256x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S32x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S32x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S32x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S32x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S256x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S32x256x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S32x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S256x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S256x2048_S256x2048_0_0 : ∀ a, (![0, 0] : Fin 2 → Nat) a + S256x2048.size a ≤ S256x2048.size a
  h_S256x2048 : 0 < S256x2048.numel
  inb_S2048_S2048_0 : ∀ a, (![0] : Fin 1 → Nat) a + S2048.size a ≤ S2048.size a
  h_S2048 : 0 < S2048.numel
  reduces_S256x2048_S256 : S256x2048.Reduces [1] S256
  shapeCasts_S256_S256x1 : S256.ShapeCasts S256x1
  broadcasts_S256x1_S256x2048 : S256x1.Broadcasts S256x2048
  shapeCasts_S2048_S1x2048 : S2048.ShapeCasts S1x2048
  broadcasts_S1x2048_S256x2048 : S1x2048.Broadcasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S256x1024_S256x1024_0_0 : ∀ a, (![0, 0] : Fin 2 → Nat) a + S256x1024.size a ≤ S256x1024.size a
  h_S256x1024 : 0 < S256x1024.numel
  slices_S256x8192_S256x4096_0_0 : S256x8192.Slices ![0, 0] S256x4096
  slices_S256x8192_S256x4096_0_4096 : S256x8192.Slices ![0, 4096] S256x4096
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x256x4_S64x256x4_0_0_0 : ∀ a, (![0, 0, 0] : Fin 3 → Nat) a + S64x256x4.size a ≤ S64x256x4.size a
  h_S64x256x4 : 0 < S64x256x4.numel
  inb_S256_S256_0 : ∀ a, (![0] : Fin 1 → Nat) a + S256.size a ≤ S256.size a
  h_S256 : 0 < S256.numel
  inb_S256x4_S256x4_0_0 : ∀ a, (![0, 0] : Fin 2 → Nat) a + S256x4.size a ≤ S256x4.size a
  h_S256x4 : 0 < S256x4.numel
  slices_S64x256x4_o0_0_1_S64x256x1 : S64x256x4.Slices ![0, 0, 1] S64x256x1
  shapeCasts_S64x256x1_S64x256 : S64x256x1.ShapeCasts S64x256
  slices_S64x256x4_o0_0_2_S64x256x1 : S64x256x4.Slices ![0, 0, 2] S64x256x1
  slices_S64x256x4_o0_0_3_S64x256x1 : S64x256x4.Slices ![0, 0, 3] S64x256x1
  shapeCasts_S64x256_S64x256x1 : S64x256.ShapeCasts S64x256x1
  concatenates_S64x256x1_S64x256x1_S64x256x1_S64x256x1_S64x256x4_d2 : Shape.Concatenates [S64x256x1, S64x256x1, S64x256x1, S64x256x1] S64x256x4 2
  shapeCasts_S256_S1x256 : S256.ShapeCasts S1x256
  slices_S256x4_o0_0_S256x1 : S256x4.Slices ![0, 0] S256x1
  shapeCasts_S256x1_S256 : S256x1.ShapeCasts S256
  broadcasts_S1x256_S64x256 : S1x256.Broadcasts S64x256
  slices_S256x4_o0_1_S256x1 : S256x4.Slices ![0, 1] S256x1
  slices_S256x4_o0_2_S256x1 : S256x4.Slices ![0, 2] S256x1
  slices_S256x4_o0_3_S256x1 : S256x4.Slices ![0, 3] S256x1
  transposes_S160x4096_S4096x160_1_0 : S160x4096.Transposes [1, 0] S4096x160
  slices_S256x160_S256x128_0_0 : S256x160.Slices ![0, 0] S256x128
  slices_S256x160_S256x16_0_128 : S256x160.Slices ![0, 128] S256x16
  slices_S256x160_S256x16_0_144 : S256x160.Slices ![0, 144] S256x16
  transposes_S4096x128_S128x4096_1_0 : S4096x128.Transposes [1, 0] S128x4096
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S_S256x4096 : S_.BroadcastsInDim S256x4096 (![] : Fin 0 → Fin S256x4096.rank)
  inb_S32x256x16_S32x256x16_0_0_0 : ∀ a, (![0, 0, 0] : Fin 3 → Nat) a + S32x256x16.size a ≤ S32x256x16.size a
  h_S32x256x16 : 0 < S32x256x16.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S256x16_S256x16_0_0 : ∀ a, (![0, 0] : Fin 2 → Nat) a + S256x16.size a ≤ S256x16.size a
  h_S256x16 : 0 < S256x16.numel
  shapeCasts_S32x256_S32x256x1 : S32x256.ShapeCasts S32x256x1
  shapeCasts_S256x16_S1x256x16 : S256x16.ShapeCasts S1x256x16
  broadcasts_S32x256x1_S32x256x16 : S32x256x1.Broadcasts S32x256x16
  broadcasts_S1x256x16_S32x256x16 : S1x256x16.Broadcasts S32x256x16
  shapeCasts_S32x16_S32x1x16 : S32x16.ShapeCasts S32x1x16
  broadcasts_S32x1x16_S32x256x16 : S32x1x16.Broadcasts S32x256x16
  reduces_S32x256x16_S32x256 : S32x256x16.Reduces [2] S32x256
  broadcasts_S1x256_S32x256 : S1x256.Broadcasts S32x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  inb_S256x512_S256x512_0_0 : ∀ a, (![0, 0] : Fin 2 → Nat) a + S256x512.size a ≤ S256x512.size a
  h_S256x512 : 0 < S256x512.numel
  dot_S256x2048_S1024x2048_S256x1024_1_1_0_0_n_n_wf : DotDims.WF S256x2048 S1024x2048 S256x1024 [1] [1] [0] [0] [] []
  dot_S256x4096_S4096x160_S256x160_1_0_0_1_n_n_wf : DotDims.WF S256x4096 S4096x160 S256x160 [1] [0] [0] [1] [] []
  dot_S256x128_S128x4096_S256x4096_1_0_0_1_n_n_wf : DotDims.WF S256x128 S128x4096 S256x4096 [1] [0] [0] [1] [] []
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .f32 = 32 ∨ (Rect.block (s := S8192x2048) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x8192.size a
  hwx0_3 : ∀ i : grid0.Coords, EltTy.bits .f32 = 32 ∨ (Rect.block (s := S256x8192) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S256x4096.size a
  hwx1_0 : ∀ i : grid1.Coords, EltTy.bits .f32 = 32 ∨ (Rect.block (s := S256x4096) S64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x256x4.size a ≤ S256x4096x4.size a
  hwx1_1 : ∀ i : grid1.Coords, EltTy.bits .f32 = 32 ∨ (Rect.block (s := S256x4096x4) S64x256x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4.size a ≤ S4096x4.size a
  hwx1_2 : ∀ i : grid1.Coords, EltTy.bits .f32 = 32 ∨ (Rect.block (s := S4096x4) S256x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S4096.size a
  hwx1_3 : ∀ i : grid1.Coords, EltTy.bits .f32 = 32 ∨ (Rect.block (s := S4096) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x256x4.size a ≤ S256x4096x4.size a
  hwx1_4 : ∀ i : grid1.Coords, EltTy.bits .f32 = 32 ∨ (Rect.block (s := S256x4096x4) S64x256x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x256.size a ≤ S256x4096.size a
  hwx1_5 : ∀ i : grid1.Coords, EltTy.bits .f32 = 32 ∨ (Rect.block (s := S256x4096) S64x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x256x16.size a ≤ S256x4096x16.size a
  hwx2_0 : ∀ i : grid2.Coords, EltTy.bits .f32 = 32 ∨ (Rect.block (s := S256x4096x16) S32x256x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x256.size a ≤ S256x4096.size a
  hwx2_1 : ∀ i : grid2.Coords, EltTy.bits .f32 = 32 ∨ (Rect.block (s := S256x4096) S32x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x256.size a ≤ S256x4096.size a
  hwx2_2 : ∀ i : grid2.Coords, EltTy.bits .f32 = 32 ∨ (Rect.block (s := S256x4096) S32x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S256x16.size a
  hwx2_3 : ∀ i : grid2.Coords, EltTy.bits .f32 = 32 ∨ (Rect.block (s := S256x16) S32x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S32x16.size a ≤ S256x16.size a
  hwx2_4 : ∀ i : grid2.Coords, EltTy.bits .f32 = 32 ∨ (Rect.block (s := S256x16) S32x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S32x256.size a ≤ S256x4096.size a
  hwx2_5 : ∀ i : grid2.Coords, EltTy.bits .f32 = 32 ∨ (Rect.block (s := S256x4096) S32x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x16.size a ≤ S4096x16.size a
  hwx2_6 : ∀ i : grid2.Coords, EltTy.bits .f32 = 32 ∨ (Rect.block (s := S4096x16) S256x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S4096.size a
  hwx2_7 : ∀ i : grid2.Coords, EltTy.bits .f32 = 32 ∨ (Rect.block (s := S4096) S256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S32x256x16.size a ≤ S256x4096x16.size a
  hwx2_8 : ∀ i : grid2.Coords, EltTy.bits .f32 = 32 ∨ (Rect.block (s := S256x4096x16) S32x256x16.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S32x256.size a ≤ S256x4096.size a
  hwx2_9 : ∀ i : grid2.Coords, EltTy.bits .f32 = 32 ∨ (Rect.block (s := S256x4096) S32x256.size (cc2_transform_9 i) (hinb2_9 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S256x4096.size a
  hwx3_0 : ∀ i : grid3.Coords, EltTy.bits .f32 = 32 ∨ (Rect.block (s := S256x4096) S256x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x4096.size a ≤ S2048x4096.size a
  hwx3_1 : ∀ i : grid3.Coords, EltTy.bits .f32 = 32 ∨ (Rect.block (s := S2048x4096) S512x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x512.size a ≤ S256x2048.size a
  hwx3_2 : ∀ i : grid3.Coords, EltTy.bits .f32 = 32 ∨ (Rect.block (s := S256x2048) S256x512.size (cc3_transform_2 i) (hinb3_2 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x4096_S4096x160_S256x160_1_0_0_1_n_n : DotDims S256x4096 S4096x160 S256x160 where
  lhsContracting := [1]
  rhsContracting := [0]
  lhsNonContracting := [0]
  rhsNonContracting := [1]
  lhsBatch := []
  rhsBatch := []
  wf := dot_S256x4096_S4096x160_S256x160_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_arg0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x256x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S64x256x4.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S64x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S32x256x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_1) S32x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S32x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S32x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S32x16.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2) S32x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S256x16.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S256.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v15_0) S32x256x16.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v15_1) S32x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v15_1) S256x4096.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S512x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S256x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S256x2048 : Shape := ⟨2, ![256, 2048]⟩
abbrev S256x4096x4 : Shape := ⟨3, ![256, 4096, 4]⟩
abbrev S256x4096x16 : Shape := ⟨3, ![256, 4096, 16]⟩
abbrev S2048 : Shape := ⟨1, ![2048]⟩
abbrev S8192x2048 : Shape := ⟨2, ![8192, 2048]⟩
abbrev S2048x4096 : Shape := ⟨2, ![2048, 4096]⟩
abbrev S4096x4 : Shape := ⟨2, ![4096, 4]⟩
abbrev S4096 : Shape := ⟨1, ![4096]⟩
abbrev S160x4096 : Shape := ⟨2, ![160, 4096]⟩
abbrev S4096x128 : Shape := ⟨2, ![4096, 128]⟩
abbrev S4096x16 : Shape := ⟨2, ![4096, 16]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S2048x8192 : Shape := ⟨2, ![2048, 8192]⟩
abbrev S256x8192 : Shape := ⟨2, ![256, 8192]⟩
abbrev S256x4096 : Shape := ⟨2, ![256, 4096]⟩
abbrev S256x4096x3 : Shape := ⟨3, ![256, 4096, 3]⟩
abbrev S256x4096x1 : Shape := ⟨3, ![256, 4096, 1]⟩
abbrev S1x4096x4 : Shape := ⟨3, ![1, 4096, 4]⟩
abbrev S1x4096 : Shape := ⟨2, ![1, 4096]⟩
abbrev S4096x160 : Shape := ⟨2, ![4096, 160]⟩
abbrev S256x160 : Shape := ⟨2, ![256, 160]⟩
abbrev S256x128 : Shape := ⟨2, ![256, 128]⟩
abbrev S256x16 : Shape := ⟨2, ![256, 16]⟩
abbrev S128x4096 : Shape := ⟨2, ![128, 4096]⟩
abbrev S1x4096x16 : Shape := ⟨3, ![1, 4096, 16]⟩
abbrev S256x1x16 : Shape := ⟨3, ![256, 1, 16]⟩
abbrev S4096x2048 : Shape := ⟨2, ![4096, 2048]⟩

abbrev nBuf : Space → Nat
  | .hbm => 116
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x4096x4, .f32⟩
  | .hbm, ⟨2, _⟩ => ⟨S256x4096x16, .f32⟩
  | .hbm, ⟨3, _⟩ => ⟨S2048, .f32⟩
  | .hbm, ⟨4, _⟩ => ⟨S8192x2048, .f32⟩
  | .hbm, ⟨5, _⟩ => ⟨S2048x4096, .f32⟩
  | .hbm, ⟨6, _⟩ => ⟨S4096x4, .f32⟩
  | .hbm, ⟨7, _⟩ => ⟨S4096, .f32⟩
  | .hbm, ⟨8, _⟩ => ⟨S160x4096, .f32⟩
  | .hbm, ⟨9, _⟩ => ⟨S4096x128, .f32⟩
  | .hbm, ⟨10, _⟩ => ⟨S4096, .f32⟩
  | .hbm, ⟨11, _⟩ => ⟨S4096x16, .f32⟩
  | .hbm, ⟨12, _⟩ => ⟨S4096, .f32⟩
  | .hbm, ⟨13, _⟩ => ⟨S256x2048, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S256x2048, .f32⟩
  | .hbm, ⟨25, _⟩ => ⟨S256x2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S2048x8192, .f32⟩
  | .hbm, ⟨30, _⟩ => ⟨S256x8192, .f32⟩
  | .hbm, ⟨31, _⟩ => ⟨S256x4096, .f32⟩
  | .hbm, ⟨32, _⟩ => ⟨S256x4096, .f32⟩
  | .hbm, ⟨33, _⟩ => ⟨S256x4096x3, .f32⟩
  | .hbm, ⟨34, _⟩ => ⟨S256x4096x1, .f32⟩
  | .hbm, ⟨35, _⟩ => ⟨S256x4096x4, .f32⟩
  | .hbm, ⟨36, _⟩ => ⟨S1x4096x4, .f32⟩
  | .hbm, ⟨37, _⟩ => ⟨S256x4096x4, .f32⟩
  | .hbm, ⟨38, _⟩ => ⟨S256x4096x4, .f32⟩
  | .hbm, ⟨39, _⟩ => ⟨S_, .f32⟩
  | .hbm, ⟨40, _⟩ => ⟨S256x4096, .f32⟩
  | .hbm, ⟨41, _⟩ => ⟨S1x4096, .f32⟩
  | .hbm, ⟨42, _⟩ => ⟨S256x4096, .f32⟩
  | .hbm, ⟨43, _⟩ => ⟨S256x4096, .f32⟩
  | .hbm, ⟨44, _⟩ => ⟨S256x4096, .f32⟩
  | .hbm, ⟨45, _⟩ => ⟨S256x4096, .f32⟩
  | .hbm, ⟨46, _⟩ => ⟨S_, .f32⟩
  | .hbm, ⟨47, _⟩ => ⟨S256x4096, .f32⟩
  | .hbm, ⟨48, _⟩ => ⟨S256x4096, .f32⟩
  | .hbm, ⟨49, _⟩ => ⟨S_, .f32⟩
  | .hbm, ⟨50, _⟩ => ⟨S256x4096, .f32⟩
  | .hbm, ⟨51, _⟩ => ⟨S256x4096, .f32⟩
  | .hbm, ⟨52, _⟩ => ⟨S256x4096, .f32⟩
  | .hbm, ⟨53, _⟩ => ⟨S4096x160, .f32⟩
  | .hbm, ⟨54, _⟩ => ⟨S256x160, .f32⟩
  | .hbm, ⟨55, _⟩ => ⟨S256x128, .f32⟩
  | .hbm, ⟨56, _⟩ => ⟨S256x16, .f32⟩
  | .hbm, ⟨57, _⟩ => ⟨S256x16, .f32⟩
  | .hbm, ⟨58, _⟩ => ⟨S128x4096, .f32⟩
  | .hbm, ⟨59, _⟩ => ⟨S256x4096, .f32⟩
  | .hbm, ⟨60, _⟩ => ⟨S1x4096, .f32⟩
  | .hbm, ⟨61, _⟩ => ⟨S256x4096, .f32⟩
  | .hbm, ⟨62, _⟩ => ⟨S256x4096, .f32⟩
  | .hbm, ⟨63, _⟩ => ⟨S_, .f32⟩
  | .hbm, ⟨64, _⟩ => ⟨S256x4096, .f32⟩
  | .hbm, ⟨65, _⟩ => ⟨S256x4096, .f32⟩
  | .hbm, ⟨66, _⟩ => ⟨S256x4096, .f32⟩
  | .hbm, ⟨67, _⟩ => ⟨S256x4096, .f32⟩
  | .hbm, ⟨68, _⟩ => ⟨S256x4096, .i1⟩
  | .hbm, ⟨69, _⟩ => ⟨S256x4096, .f32⟩
  | .hbm, ⟨70, _⟩ => ⟨S256x4096, .f32⟩
  | .hbm, ⟨71, _⟩ => ⟨S256x4096, .f32⟩
  | .hbm, ⟨72, _⟩ => ⟨S256x4096, .f32⟩
  | .hbm, ⟨73, _⟩ => ⟨S256x4096, .f32⟩
  | .hbm, ⟨74, _⟩ => ⟨S256x4096, .f32⟩
  | .hbm, ⟨75, _⟩ => ⟨S256x4096, .f32⟩
  | .hbm, ⟨76, _⟩ => ⟨S256x4096, .f32⟩
  | .hbm, ⟨77, _⟩ => ⟨S4096x16, .f32⟩
  | .hbm, ⟨78, _⟩ => ⟨S4096x16, .f32⟩
  | .hbm, ⟨79, _⟩ => ⟨S256x4096x1, .f32⟩
  | .hbm, ⟨80, _⟩ => ⟨S1x4096x16, .f32⟩
  | .hbm, ⟨81, _⟩ => ⟨S256x4096x16, .f32⟩
  | .hbm, ⟨82, _⟩ => ⟨S256x4096x16, .f32⟩
  | .hbm, ⟨83, _⟩ => ⟨S256x4096x16, .f32⟩
  | .hbm, ⟨84, _⟩ => ⟨S256x4096x16, .f32⟩
  | .hbm, ⟨85, _⟩ => ⟨S256x4096x1, .f32⟩
  | .hbm, ⟨86, _⟩ => ⟨S256x1x16, .f32⟩
  | .hbm, ⟨87, _⟩ => ⟨S256x4096x16, .f32⟩
  | .hbm, ⟨88, _⟩ => ⟨S256x4096x16, .f32⟩
  | .hbm, ⟨89, _⟩ => ⟨S256x4096x16, .f32⟩
  | .hbm, ⟨90, _⟩ => ⟨S256x4096x16, .f32⟩
  | .hbm, ⟨91, _⟩ => ⟨S256x4096x1, .f32⟩
  | .hbm, ⟨92, _⟩ => ⟨S256x4096x16, .f32⟩
  | .hbm, ⟨93, _⟩ => ⟨S256x4096x16, .f32⟩
  | .hbm, ⟨94, _⟩ => ⟨S256x4096x16, .f32⟩
  | .hbm, ⟨95, _⟩ => ⟨S256x1x16, .f32⟩
  | .hbm, ⟨96, _⟩ => ⟨S256x4096x16, .f32⟩
  | .hbm, ⟨97, _⟩ => ⟨S256x4096x16, .f32⟩
  | .hbm, ⟨98, _⟩ => ⟨S_, .f32⟩
  | .hbm, ⟨99, _⟩ => ⟨S256x4096, .f32⟩
  | .hbm, ⟨100, _⟩ => ⟨S1x4096, .f32⟩
  | .hbm, ⟨101, _⟩ => ⟨S256x4096, .f32⟩
  | .hbm, ⟨102, _⟩ => ⟨S256x4096, .f32⟩
  | .hbm, ⟨103, _⟩ => ⟨S256x4096, .f32⟩
  | .hbm, ⟨104, _⟩ => ⟨S256x4096, .f32⟩
  | .hbm, ⟨105, _⟩ => ⟨S256x4096, .f32⟩
  | .hbm, ⟨106, _⟩ => ⟨S_, .f32⟩
  | .hbm, ⟨107, _⟩ => ⟨S256x4096, .f32⟩
  | .hbm, ⟨108, _⟩ => ⟨S256x4096, .f32⟩
  | .hbm, ⟨109, _⟩ => ⟨S_, .f32⟩
  | .hbm, ⟨110, _⟩ => ⟨S256x4096, .f32⟩
  | .hbm, ⟨111, _⟩ => ⟨S256x4096, .f32⟩
  | .hbm, ⟨112, _⟩ => ⟨S256x4096, .f32⟩
  | .hbm, ⟨113, _⟩ => ⟨S256x4096, .f32⟩
  | .hbm, ⟨114, _⟩ => ⟨S4096x2048, .f32⟩
  | .hbm, ⟨115, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_3 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩

abbrev nD : Nat := 1
abbrev τ : Topo := Topo.v7x

variable {F : FTy → Type} [FloatOps F]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  bcast_S2048_S1x2048_1 : S2048.BroadcastsInDim S1x2048 (![1] : Fin 1 → Fin S1x2048.rank)
  bcast_S1x2048_S256x2048_0_1 : S1x2048.BroadcastsInDim S256x2048 (![0, 1] : Fin 2 → Fin S256x2048.rank)
  transposes_S8192x2048_S2048x8192_1_0 : S8192x2048.Transposes [1, 0] S2048x8192
  slices_S256x8192_S256x4096_0_0 : S256x8192.Slices ![0, 0] S256x4096
  slices_S256x8192_S256x4096_0_4096 : S256x8192.Slices ![0, 4096] S256x4096
  slices_S256x4096x4_S256x4096x3_0_0_1 : S256x4096x4.Slices ![0, 0, 1] S256x4096x3
  bcast_S256x4096_S256x4096x1_0_1 : S256x4096.BroadcastsInDim S256x4096x1 (![0, 1] : Fin 2 → Fin S256x4096x1.rank)
  concatenates_S256x4096x3_S256x4096x1_S256x4096x4_d2 : Shape.Concatenates [S256x4096x3, S256x4096x1] S256x4096x4 2
  bcast_S4096x4_S1x4096x4_1_2 : S4096x4.BroadcastsInDim S1x4096x4 (![1, 2] : Fin 2 → Fin S1x4096x4.rank)
  bcast_S1x4096x4_S256x4096x4_0_1_2 : S1x4096x4.BroadcastsInDim S256x4096x4 (![0, 1, 2] : Fin 3 → Fin S256x4096x4.rank)
  reducesTo_S256x4096x4_S256x4096_d2 : S256x4096x4.ReducesTo [2] S256x4096
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S_S256x4096 : S_.BroadcastsInDim S256x4096 (![] : Fin 0 → Fin S256x4096.rank)
  transposes_S160x4096_S4096x160_1_0 : S160x4096.Transposes [1, 0] S4096x160
  slices_S256x160_S256x128_0_0 : S256x160.Slices ![0, 0] S256x128
  slices_S256x160_S256x16_0_128 : S256x160.Slices ![0, 128] S256x16
  slices_S256x160_S256x16_0_144 : S256x160.Slices ![0, 144] S256x16
  transposes_S4096x128_S128x4096_1_0 : S4096x128.Transposes [1, 0] S128x4096
  bcast_S4096x16_S1x4096x16_1_2 : S4096x16.BroadcastsInDim S1x4096x16 (![1, 2] : Fin 2 → Fin S1x4096x16.rank)
  bcast_S256x4096x1_S256x4096x16_0_1_2 : S256x4096x1.BroadcastsInDim S256x4096x16 (![0, 1, 2] : Fin 3 → Fin S256x4096x16.rank)
  bcast_S1x4096x16_S256x4096x16_0_1_2 : S1x4096x16.BroadcastsInDim S256x4096x16 (![0, 1, 2] : Fin 3 → Fin S256x4096x16.rank)
  bcast_S256x16_S256x1x16_0_2 : S256x16.BroadcastsInDim S256x1x16 (![0, 2] : Fin 2 → Fin S256x1x16.rank)
  bcast_S256x1x16_S256x4096x16_0_1_2 : S256x1x16.BroadcastsInDim S256x4096x16 (![0, 1, 2] : Fin 3 → Fin S256x4096x16.rank)
  reducesTo_S256x4096x16_S256x4096_d2 : S256x4096x16.ReducesTo [2] S256x4096
  transposes_S2048x4096_S4096x2048_1_0 : S2048x4096.Transposes [1, 0] S4096x2048
  dot_S256x2048_S2048x8192_S256x8192_1_0_0_1_n_n_wf : DotDims.WF S256x2048 S2048x8192 S256x8192 [1] [0] [0] [1] [] []
  dot_S256x4096_S4096x160_S256x160_1_0_0_1_n_n_wf : DotDims.WF S256x4096 S4096x160 S256x160 [1] [0] [0] [1] [] []
  dot_S256x128_S128x4096_S256x4096_1_0_0_1_n_n_wf : DotDims.WF S256x128 S128x4096 S256x4096 [1] [0] [0] [1] [] []
  dot_S256x4096_S4096x2048_S256x2048_1_0_0_1_n_n_wf : DotDims.WF S256x4096 S4096x2048 S256x2048 [1] [0] [0] [1] [] []

variable [Facts₀]

def dot_S256x2048_S2048x8192_S256x8192_1_0_0_1_n_n : DotDims S256x2048 S2048x8192 S256x8192 where
  lhsContracting := [1]
  rhsContracting := [0]
  lhsNonContracting := [0]
  rhsNonContracting := [1]
  lhsBatch := []
  rhsBatch := []
  wf := dot_S256x2048_S2048x8192_S256x8192_1_0_0_1_n_n_wf
def dot_S256x4096_S4096x160_S256x160_1_0_0_1_n_n : DotDims S256x4096 S4096x160 S256x160 where
  lhsContracting := [1]
  rhsContracting := [0]
  lhsNonContracting := [0]
  rhsNonContracting := [1]
  lhsBatch := []
  rhsBatch := []
  wf := dot_S256x4096_S4096x160_S256x160_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

class Facts : Prop extends Facts₀ where

variable [Facts]
-- ==== Proof.WholeRun.lean ====
/-
  The idealized kernel's whole run, with the results named.

  The program is four kernel regions among stretches of host operations.  Its run ends with every buffer
  that outlives the regions at the contents a fold through the program gives it: each stretch of host
  operations applies its operations, each region leaves its arrays at what its write-backs fold to.  Here that
  fold is read at the three result buffers (and the thirteen arguments, which nothing writes): the
  projected output is region 3's output array, the new convolution state is region 1's first output array
  (no later operation writes it), the new recurrent state is region 2's first output array.
-/
import proofs.«149866_j84473416778379_2_alg».proof.Defs
import proofs.«149866_j84473416778379_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state each of the
    three results holds what the fold through the program leaves at its buffer, the arguments what they held
    at the launch. -/
theorem run_fold : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_v3_0) = W7 m ρ c (Proc.devRef .tc main_v3_0)
      ∧ r.2.mem ((c.tc : Thread nD τ).loc main_v15_0) = W7 m ρ c (Proc.devRef .tc main_v15_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       h c _ (mem_uc main_v3_0 (by decide)),
       h c _ (mem_uc main_v15_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.Whole

end
-- ==== Proof.Spec.lean ====
/-
  The mathematics of one step of the block, stated once, index by index, over the extended reals.

  Six whole-array functions, each of the arrays it is computed from:
    * `inProj`   — every row of the input is scaled by the reciprocal square root of its mean square plus a
                    small constant and by the weight vector, then multiplied by the transposed input-projection
                    matrix: entry (b, n) is the sum over k of the scaled entry (b, k) times w (n, k);
    * `convNew`  — the sliding window of the last four inputs: positions 1, 2, 3 of the old window move to
                    0, 1, 2 and the new input takes position 3;
    * `convOut`  — the bias plus the window's four entries, each times its own weight, through x · σ(x);
    * `stateNew` — the recurrent state: exp (δ · (0 - exp a)) times the old state plus δ · x · B;
    * `gated`    — the state contracted against C over its last axis, plus D · x, times z · σ(z);
    * `outProj`  — the gated rows times the transposed output-projection matrix.
  The two programs differ only in how they arrange these sums and products; both are shown equal to these
  functions, and so to each other.
-/
import Idealize.ShloMosaic.PureOps.Ideal
import Idealize.ShloMosaic.PureOps.Ideal.Laws
import Idealize.ShloMosaic.Lib.ValueIdx

noncomputable section

open scoped BigOperators

namespace Cert.Step

open Idealize.ShloMosaic Idealize.ShloMosaic.ValueIdx

/-- Arrays of extended reals of rank one, two and three over literal extents. -/
abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- The row length 2048 and the small constant added to the mean square, as the words both programs spell. -/
abbrev rowLen : EReal := Ideal.ofBits .f32 0x45000000#32
abbrev smallConst : EReal := Ideal.ofBits .f32 0x3727C5AC#32

/-- `s · σ(s)`, with `σ` the logistic function. -/
def silu (s : EReal) : EReal := s * Ideal.logistic s

/-- Entry (b, k) of the normalized input: the entry times the reciprocal square root of the row's mean square
    plus the small constant, times the weight of column k. -/
def normed (x : Arr2 256 2048) (g : Arr1 2048) (b : Fin 256) (k : Fin 2048) : EReal :=
  x (ix2 b k) * Ideal.rsqrt (Ideal.div (∑ j : Fin 2048, x (ix2 b j) * x (ix2 b j)) rowLen + smallConst) * g (ix1 k)

/-- The input projection: entry (b, n) sums the normalized row b against row n of the weight matrix. -/
def inProj (x : Arr2 256 2048) (g : Arr1 2048) (w : Arr2 8192 2048) : Arr2 256 8192 :=
  fun i => ∑ k : Fin 2048, normed x g (i 0) k * w (ix2 (i 1) k)

/-- The new window: old positions 1, 2, 3 shifted down by one, the new input last. -/
def convNew {nb nd : Nat} (x : Arr2 nb nd) (cs : Arr3 nb nd 4) : Arr3 nb nd 4 :=
  fun i => if (i 2).val < 3 then cs (ix3 (i 0) (i 1) ⟨((i 2).val + 1) % 4, Nat.mod_lt _ (by decide)⟩) else x (ix2 (i 0) (i 1))

/-- The depthwise convolution over the new window at (b, d), before the activation: the bias, then the four
    window entries times their weights, added in this order. (Stated for any batch and channel extents, so that it
    can be read on a block as on the whole arrays.) -/
def convSum {nb nd : Nat} (x : Arr2 nb nd) (cs : Arr3 nb nd 4) (cw : Arr2 nd 4) (cb : Arr1 nd) (b : Fin nb) (d : Fin nd) : EReal :=
  cb (ix1 d) + cs (ix3 b d 1) * cw (ix2 d 0) + cs (ix3 b d 2) * cw (ix2 d 1) + cs (ix3 b d 3) * cw (ix2 d 2)
    + x (ix2 b d) * cw (ix2 d 3)

/-- The convolution's output. -/
def convOut {nb nd : Nat} (x : Arr2 nb nd) (cs : Arr3 nb nd 4) (cw : Arr2 nd 4) (cb : Arr1 nd) : Arr2 nb nd :=
  fun i => silu (convSum x cs cw cb (i 0) (i 1))

/-- The new recurrent state at (b, d, n). -/
def stateAt {nb nd ns : Nat} (ss : Arr3 nb nd ns) (xc δ : Arr2 nb nd) (B : Arr2 nb ns) (alog : Arr2 nd ns)
    (b : Fin nb) (d : Fin nd) (n : Fin ns) : EReal :=
  Ideal.exp (δ (ix2 b d) * (0 - Ideal.exp (alog (ix2 d n)))) * ss (ix3 b d n) + δ (ix2 b d) * xc (ix2 b d) * B (ix2 b n)

def stateNew {nb nd ns : Nat} (ss : Arr3 nb nd ns) (xc δ : Arr2 nb nd) (B : Arr2 nb ns) (alog : Arr2 nd ns) : Arr3 nb nd ns :=
  fun i => stateAt ss xc δ B alog (i 0) (i 1) (i 2)

/-- The gated output at (b, d): the new state against `C` over the state axis, plus `D · x`, times `z · σ(z)`. -/
def gatedAt {nb nd ns : Nat} (ss : Arr3 nb nd ns) (xc δ : Arr2 nb nd) (B C : Arr2 nb ns) (z : Arr2 nb nd) (alog : Arr2 nd ns)
    (D : Arr1 nd) (b : Fin nb) (d : Fin nd) : EReal :=
  (∑ n : Fin ns, stateAt ss xc δ B alog b d n * C (ix2 b n) + D (ix1 d) * xc (ix2 b d)) * silu (z (ix2 b d))

def gated {nb nd ns : Nat} (ss : Arr3 nb nd ns) (xc δ : Arr2 nb nd) (B C : Arr2 nb ns) (z : Arr2 nb nd) (alog : Arr2 nd ns)
    (D : Arr1 nd) : Arr2 nb nd :=
  fun i => gatedAt ss xc δ B C z alog D (i 0) (i 1)

/-- The output projection. -/
def outProj (y : Arr2 256 4096) (w : Arr2 2048 4096) : Arr2 256 2048 :=
  fun i => ∑ d : Fin 4096, y (ix2 (i 0) d) * w (ix2 (i 1) d)

/-! ## The laws that join the two arrangements (none needs a finite argument) -/

theorem zero_sub_eq (e : EReal) : 0 - e = -e := by rw [sub_eq_add_neg, zero_add]

/-- The same five terms, the bias last instead of first, after a leading zero. -/
theorem bias_last (c a0 a1 a2 a3 : EReal) : 0 + (a0 + a1 + a2 + a3) + c = c + a0 + a1 + a2 + a3 := by
  rw [zero_add, add_comm _ c, ← add_assoc, ← add_assoc, ← add_assoc]

/-- Three factors, the last two exchanged. -/
theorem swap_last (a b c : EReal) : a * b * c = a * c * b := mul_right_comm a b c

theorem one_word : Ideal.ofBits .f32 0x3F800000#32 = 1 := by simp [Ideal.ofBits, Ideal.ieee, -EReal.coe_mul]; norm_num

end Cert.Step

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.InProjValue.lean ====
/-
  Region 0, the normalization and input projection: what its output array holds when the region ends.

  The grid has eight points; every point sees the whole input and the whole weight vector, and point t sees rows
  1024 t … 1024 t + 1023 of the projection matrix and writes columns 1024 t … of the output.  The body squares the
  input, sums each row, divides by the row length, adds the small constant, takes the reciprocal square root,
  spreads it back over the row, multiplies by the input and by the weight of each column, and multiplies the
  result by the matrix block, contracting both over their second axis.  So entry (p, q) of the block is the sum over
  k of the normalized entry (p, k) times w (1024 t + q, k): the restriction of `inProj`, and the blocks tile the
  output.
-/
import proofs.«149866_j84473416778379_2_alg».proof.Proof.Gen.KernelIdeal.Frame
import proofs.«149866_j84473416778379_2_alg».proof.Proof.Spec
import proofs.«149866_j84473416778379_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.InProj

open Idealize.ShloMosaic Idealize.ShloMosaic.TcCoe Idealize.SL.Sem Idealize.ShloMosaic.ValueIdx
open Idealize.ShloMosaic.Pipeline (Dat)
open Cert.KernelIdeal Cert.KernelIdeal.Gen Cert.Step

theorem hz : (![0, 0] : Fin 2 → Nat) = fun _ => 0 := funext fun a => by fin_cases a <;> rfl
theorem hz1 : (![0] : Fin 1 → Nat) = fun _ => 0 := funext fun a => by fin_cases a; rfl

theorem lhs0 (i : S256x1024.Idx) (q : dot_S256x2048_S1024x2048_S256x1024_1_1_0_0_n_n.contr.Idx) : (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem lhs1 (i : S256x1024.Idx) (q : dot_S256x2048_S1024x2048_S256x1024_1_1_0_0_n_n.contr.Idx) : (dot_S256x2048_S1024x2048_S256x1024_1_1_0_0_n_n.lhsIdx i q 1).val = (q ⟨0, by decide⟩).val :=
  dot_S256x2048_S1024x2048_S256x1024_1_1_0_0_n_n.lhsIdx_val_of_single rfl i q
theorem rhs0 (i : S256x1024.Idx) (q : dot_S256x2048_S1024x2048_S256x1024_1_1_0_0_n_n.contr.Idx) : (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem rhs1 (i : S256x1024.Idx) (q : dot_S256x2048_S1024x2048_S256x1024_1_1_0_0_n_n.contr.Idx) : (dot_S256x2048_S1024x2048_S256x1024_1_1_0_0_n_n.rhsIdx i q 1).val = (q ⟨0, by decide⟩).val :=
  dot_S256x2048_S1024x2048_S256x1024_1_1_0_0_n_n.rhsIdx_val_of_single rfl i q

/-- The matrix product into a zero accumulator, both operands contracted over their second axis, at (p, q): row p of
    the first against row q of the second. -/
theorem matmul_rows {φ₁ φ₂ : FTy} (l : FVec Ideal S256x2048 φ₁) (r : FVec Ideal S1024x2048 φ₂) (p : Fin 256) (q : Fin 1024) :
    FloatOps.matmul dot_S256x2048_S1024x2048_S256x1024_1_1_0_0_n_n none l r (constant S256x1024 .f32 0x00000000#32) (ix2 p q) = ∑ k : Fin 2048, l (ix2 p k) * r (ix2 q k) := by
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p q) ((contrEquiv1 dot_S256x2048_S1024x2048_S256x1024_1_1_0_0_n_n 2048 rfl rfl).symm k) = ix2 p k := funext fun a => Fin.ext (by
    match a with
    | ⟨0, _⟩ => exact lhs0 _ _
    | ⟨1, _⟩ => exact (lhs1 _ _).trans hk)
  have er : dot_S256x2048_S1024x2048_S256x1024_1_1_0_0_n_n.rhsIdx (ix2 p q) ((contrEquiv1 dot_S256x2048_S1024x2048_S256x1024_1_1_0_0_n_n 2048 rfl rfl).symm k) = ix2 q k := funext fun a => Fin.ext (by
    match a with
    | ⟨0, _⟩ => exact rhs0 _ _
    | ⟨1, _⟩ => exact (rhs1 _ _).trans hk)
  rw [el, er]

/-- The sum of a row's squares, as the body's lane reduction gives it. -/
theorem rowSquares (x : FVec Ideal S256x2048 .f32) (p : Fin 256) :
    multiReduction (F := Ideal) .add [1] S256 (mulf x x) 0x00000000#32 reduces_S256x2048_S256 (.inl rfl) rfl (ix1 p)
      = ∑ j : Fin 2048, x (ix2 p j) * x (ix2 p j) := by
  refine (Ideal.multiReduction_add_single (mulf x x) 0x00000000#32 reduces_S256x2048_S256 (.inl rfl) rfl (ix1 p)).trans ?_
  show ∑ j : Fin 2048, (mulf x x) (reduces_S256x2048_S256.lift (ix1 p) j) = _
  refine Finset.sum_congr rfl fun j _ => ?_
  have e : reduces_S256x2048_S256.lift (ix1 p) j = ix2 p j := funext fun a => Fin.ext (by
    match a with
    | ⟨0, _⟩ => rfl
    | ⟨1, _⟩ => rfl)
  rw [e]; rfl

/-- The scale of row p: the reciprocal square root of the mean square plus the small constant, read where the body
    keeps it, in column 0 of a `[256, 1]` array. -/
theorem rowScale (x : FVec Ideal S256x2048 .f32) (p : Fin 256) :
    (rsqrt (F := Ideal) (addf (divf (shapeCast S256x1 (multiReduction (F := Ideal) .add [1] S256 (mulf x x) 0x00000000#32 reduces_S256x2048_S256 (.inl rfl) rfl) shapeCasts_S256_S256x1)
        (broadcast S256x1 (Scalar.ofBits (F := Ideal) .f32 0x45000000#32))) (broadcast S256x1 (Scalar.ofBits (F := Ideal) .f32 0x3727C5AC#32)))) (ix2 p (0 : Fin 1))
      = Ideal.rsqrt (Ideal.div (∑ j : Fin 2048, x (ix2 p j) * x (ix2 p j)) rowLen + smallConst) := by
  show Ideal.rsqrt (Ideal.div (shapeCast S256x1 (multiReduction (F := Ideal) .add [1] S256 (mulf x x) 0x00000000#32 reduces_S256x2048_S256 (.inl rfl) rfl) shapeCasts_S256_S256x1 (ix2 p (0 : Fin 1))) rowLen + smallConst) = _
  rw [Cert.LibColumn.shapeCast_a_a1_apply, rowSquares]

/-- The body's result at (p, q): the normalized row p against row q of the matrix block. -/
theorem pay_apply (x : FVec Ideal S256x2048 .f32) (g : FVec Ideal S2048 .f32) (w : FVec Ideal S1024x2048 .f32) (p : Fin 256) (q : Fin 1024) :
    k0_pay1 (F := Ideal) x g w (ix2 p q) = ∑ k : Fin 2048, normed x g p k * w (ix2 q k) := by
  unfold k0_pay1
  refine (matmul_rows _ _ p q).trans ?_
  refine Finset.sum_congr rfl fun k _ => ?_
  unfold normed
  show x (ix2 p k) * broadcastTo S256x2048 _ broadcasts_S256x1_S256x2048 (ix2 p k) * broadcastTo S256x2048 (shapeCast S1x2048 g shapeCasts_S2048_S1x2048) broadcasts_S1x2048_S256x2048 (ix2 p k) * w (ix2 q k) = _
  rw [Cert.LibColumn.broadcastTo_a1_ab_apply, broadcastTo_1b_ab_apply, shapeCast_a_1a_apply, rowScale]

variable (V : (c : Dev nD) → (b : Ref sig .tc) → Buf (Elt Ideal) ((c : Thread nD τ).loc b))

/-- The printed index maps over the eight points: the input and the weight vector never move, the matrix block's
    row index is the output block's column index, which is the point itself. -/
theorem idx_facts : ∀ t : Fin cfg0.N, win0_0.index t (0 : Fin 2) = 0 ∧ win0_0.index t (1 : Fin 2) = 0
    ∧ win0_1.index t (0 : Fin 1) = 0
    ∧ win0_2.index t (0 : Fin 2) = win0_3.index t (1 : Fin 2) ∧ win0_2.index t (1 : Fin 2) = 0
    ∧ win0_3.index t (0 : Fin 2) = 0 ∧ win0_3.index t (1 : Fin 2) = t.val :=
  (by decide +kernel : ∀ t : Fin grid0.N, _)

/-- What point t writes back is block t of the projection of the arrays the region finds. -/
theorem flushed_eq (c : Dev nD) (t : Fin cfg0.N) :
    (dat0 V c).flushed 3 t = ((cfg0.win 3).blk t).view.read (Elt Ideal) (inProj (V c main_arg0) (V c main_arg3) (V c main_arg4)) := by
  show (cfg0.win 3).cut (grid0.coords t) ((dat0 V c).after 3 t) = _
  rw [after0_3]
  unfold out0_3
  rw [View.canon_unit_zero hz]
  simp only [View.ld_unit_zero (S := S256x2048) hz, View.ld_unit_zero (S := S1024x2048) hz, View.ld_unit_zero (S := S2048) hz1]
  obtain ⟨e0, e1, e2, e3, e4, e5, e6⟩ := idx_facts t
  funext j
  obtain ⟨p, q, rfl⟩ : ∃ (p : Fin 256) (q : Fin 1024), j = ix2 p q := ⟨j 0, j 1, eq_ix2 j⟩
  show k0_pay1 (F := Ideal) (iblk0 V c 0 t) (iblk0 V c 1 t) (iblk0 V c 2 t) (ix2 p q) = inProj (V c main_arg0) (V c main_arg3) (V c main_arg4) (((cfg0.win 3).blk t).view.emb (ix2 p q))
  refine (pay_apply _ _ _ p q).trans ?_
  unfold inProj
  have hx : (iblk0 V c 0 t : FVec Ideal S256x2048 .f32) = V c main_arg0 := by
    funext y
    show V c main_arg0 (((cfg0.win 0).blk t).view.emb y) = V c main_arg0 y
    refine congrArg _ (funext fun a => Fin.ext ?_)
    match a with
    | ⟨0, _⟩ => show win0_0.index t (0 : Fin 2) * 256 + 1 * (y 0).val = (y 0).val; omega
    | ⟨1, _⟩ => show win0_0.index t (1 : Fin 2) * 2048 + 1 * (y 1).val = (y 1).val; omega
  have hg : (iblk0 V c 1 t : FVec Ideal S2048 .f32) = V c main_arg3 := by
    funext y
    show V c main_arg3 (((cfg0.win 1).blk t).view.emb y) = V c main_arg3 y
    refine congrArg _ (funext fun a => Fin.ext ?_)
    match a with
    | ⟨0, _⟩ => show win0_1.index t (0 : Fin 1) * 2048 + 1 * (y 0).val = (y 0).val; omega
  have hp : (((cfg0.win 3).blk t).view.emb (ix2 p q)) 0 = p := Fin.ext (by
    show win0_3.index t (0 : Fin 2) * 256 + 1 * p.val = p.val; omega)
  rw [hx, hg, hp]
  refine Finset.sum_congr rfl fun k _ => ?_
  have h2 : ((cfg0.win 2).blk t).view.emb (ix2 q k) = ix2 ((((cfg0.win 3).blk t).view.emb (ix2 p q)) 1) k := by
    funext a; apply Fin.ext
    match a with
    | ⟨0, _⟩ => show win0_2.index t (0 : Fin 2) * 1024 + 1 * q.val = win0_3.index t (1 : Fin 2) * 1024 + 1 * q.val; omega
    | ⟨1, _⟩ => show win0_2.index t (1 : Fin 2) * 2048 + 1 * k.val = k.val; omega
  show normed (V c main_arg0) (V c main_arg3) p k * (V c main_arg4 (((cfg0.win 2).blk t).view.emb (ix2 q k)) : EReal) = _
  rw [h2]
  rfl

/-- An index is in point t's block iff each coordinate is in the block's range on its axis. -/
theorem mem_blk (t : Fin cfg0.N) (i : S256x8192.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v0).slice (win0_3.rect t)).set ↔ _
  rw [View.set_slice_whole, Rect.mem_set_unit]
  exact Iff.rfl

/-- Every index of the output is in the block of the point its column falls in. -/
theorem cover (i : S256x8192.Idx) : ∃ t : Fin cfg0.N, (cfg0.win 3).flush t = true ∧ i ∈ ((cfg0.win 3).blk t).view.set := by
  have hi0 : (i 0).val < 256 := (i 0).isLt
  have hi1 : (i 1).val < 8192 := (i 1).isLt
  refine ⟨⟨(i 1).val / 1024, by show (i 1).val / 1024 < 8; omega⟩, flush0_3 _, ?_⟩
  rw [mem_blk]
  obtain ⟨e0, e1, e2, e3, e4, e5, e6⟩ := idx_facts ⟨(i 1).val / 1024, by show (i 1).val / 1024 < 8; omega⟩
  intro a
  match a with
  | ⟨0, _⟩ => show win0_3.index _ (0 : Fin 2) * 256 ≤ (i 0).val ∧ (i 0).val < win0_3.index _ (0 : Fin 2) * 256 + 256; rw [e5]; omega
  | ⟨1, _⟩ => show win0_3.index _ (1 : Fin 2) * 1024 ≤ (i 1).val ∧ (i 1).val < win0_3.index _ (1 : Fin 2) * 1024 + 1024; rw [e6]; show (i 1).val / 1024 * 1024 ≤ (i 1).val ∧ (i 1).val < (i 1).val / 1024 * 1024 + 1024; omega

/-- The region's output array when it ends. -/
theorem final (c : Dev nD) : (dat0 V c).arrAt 3 cfg0.N = inProj (V c main_arg0) (V c main_arg3) (V c main_arg4) :=
  (dat0 V c).arrAt_eq_of_cover 3 (inProj (V c main_arg0) (V c main_arg3) (V c main_arg4)) (fun t _ => flushed_eq V c t) cover

end Cert.KernelIdeal.InProj

end
-- ==== Proof.LibTrailing.lean ====
/-
  Layout operations read at an index, for rank-3 arrays whose last or middle axis is a unit axis (a matrix carried
  as `[a, b, 1]` and spread over a trailing axis, a matrix `[a, c]` carried as `[a, 1, c]` and spread over a middle
  axis, a leading unit axis spread over the batch), a slice along the last of three axes, and the cast `[a, 1]` to
  `[a]` — in the style of the library's `shapeCast_a_1a_apply` and `broadcastTo_1b_ab_apply`.
-/
import Idealize.ShloMosaic.Lib.Pipeline.Value
import Idealize.ShloMosaic.Lib.ValueIdx

namespace Cert.LibTrailing

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A rank-3 array cut along its last axis from `o` reads, at `(i, j, e)`, the source at `(i, j, k)` with `k = o + e`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (i : Fin n0) (j : Fin n1) (e : Fin m) (k : Fin n2) (hk : k.val = o + e.val) :
    extractStridedSlice ⟨3, ![n0, n1, m]⟩ ![0, 0, o] X h (ix3 i j e) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibTrailing
-- ==== Proof.ConvValue.lean ====
/-
  Region 1, the sliding window and the depthwise convolution: what its two output arrays hold when the region ends.

  The grid has 4 × 16 points; point (I, J) works on batch rows 64 I … 64 I + 63 and channels 256 J … 256 J + 255:
  that block of the new input and of the old window (all four positions), rows 256 J … of the weights and entries
  256 J … of the bias.  The body takes positions 1, 2, 3 of the old window and the new input, lays them side by side
  as the new window, and adds to the bias the four of them times the four weight columns, in that order, then
  applies s · σ(s).  So each block is the restriction of `convNew` (of `convOut`) of the arrays the region finds,
  and the blocks tile both output arrays.
-/
import proofs.«149866_j84473416778379_2_alg».proof.Proof.Gen.KernelIdeal.Frame
import proofs.«149866_j84473416778379_2_alg».proof.Proof.Spec
import proofs.«149866_j84473416778379_2_alg».proof.Proof.LibTrailing
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Conv

open Idealize.ShloMosaic Idealize.ShloMosaic.TcCoe Idealize.SL.Sem Idealize.ShloMosaic.ValueIdx
open Idealize.ShloMosaic.Pipeline (Dat)
open Cert.KernelIdeal Cert.KernelIdeal.Gen Cert.Step Cert.LibTrailing

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

theorem vlogistic_apply {s : Shape} {φ : FTy} (v : FVec Ideal s φ) (i : s.Idx) : logistic v i = Ideal.logistic (v i) := rfl

/-- Position `K` of the old window, cut out as a `[64, 256, 1]` slab and cast to `[64, 256]`, read at (p, q). -/
theorem tap (cs : FVec Ideal S64x256x4 .f32) (o : Nat) (h : S64x256x4.Slices ![0, 0, o] S64x256x1) (sc : S64x256x1.ShapeCasts S64x256)
    (p : Fin 64) (q : Fin 256) (K : Fin 4) (hK : K.val = o + 0) :
    shapeCast S64x256 (extractStridedSlice S64x256x1 ![0, 0, o] cs h) sc (ix2 p q) = cs (ix3 p q K) := by
  rw [shapeCast_ab1_ab_apply, slice3_axis2_apply o cs h p q (0 : Fin 1) K hK]

/-- Column `K` of the weights, cut out as `[256, 1]`, cast to `[256]` and to `[1, 256]` and spread over the batch rows,
    read at (p, q). -/
theorem weightCol (cw : FVec Ideal S256x4 .f32) (o : Nat) (h : S256x4.Slices ![0, o] S256x1) (sc1 : S256x1.ShapeCasts S256)
    (sc2 : S256.ShapeCasts S1x256) (bc : S1x256.Broadcasts S64x256) (p : Fin 64) (q : Fin 256) (K : Fin 4) (hK : K.val = o + 0) :
    broadcastTo S64x256 (shapeCast S1x256 (shapeCast S256 (extractStridedSlice S256x1 ![0, o] cw h) sc1) sc2) bc (ix2 p q) = cw (ix2 q K) := by
  rw [broadcastTo_1b_ab_apply, shapeCast_a_1a_apply, shapeCast_a1_a_apply, slice2_axis1_apply o cw h q (0 : Fin 1) K hK]

/-- The body's new window at (p, q, n) of a block. -/
theorem new_apply (x : FVec Ideal S64x256 .f32) (cs : FVec Ideal S64x256x4 .f32) (p : Fin 64) (q : Fin 256) (n : Fin 4) :
    k1_pay5 (F := Ideal) x cs (ix3 p q n) = convNew x cs (ix3 p q n) := by
  unfold k1_pay5 k1_pay1 k1_pay2 k1_pay3 k1_pay4
  have hi : ∀ (m : Fin 4) (b : Fin S64x256x1.rank), b.cast (rfl : S64x256x1.rank = S64x256x4.rank) ≠ (2 : Fin 3) →
      ((ix3 p q (0 : Fin 1) : S64x256x1.Idx) b).val = ((ix3 p q m : S64x256x4.Idx) (b.cast rfl)).val := fun m b hb => by
    match b with
    | ⟨0, _⟩ => rfl
    | ⟨1, _⟩ => rfl
    | ⟨2, _⟩ => exact absurd rfl hb
  match n with
  | ⟨0, _⟩ =>
    refine (concatenate_apply_piece 2 _ _ (ix3 p q (0 : Fin 4)) 0 ?_ S64x256x1 _ rfl rfl 0 ?_ (ix3 p q (0 : Fin 1)) (hi 0) rfl).trans ?_
    · show (0 : ℕ) < 4; decide
    · rfl
    · rw [shapeCast_ab_ab1_apply, tap cs 1 _ _ p q (1 : Fin 4) rfl]; rfl
  | ⟨1, _⟩ =>
    refine (concatenate_apply_piece 2 _ _ (ix3 p q (1 : Fin 4)) 1 ?_ S64x256x1 _ rfl rfl 1 ?_ (ix3 p q (0 : Fin 1)) (hi 1) rfl).trans ?_
    · show (1 : ℕ) < 4; decide
    · rfl
    · rw [shapeCast_ab_ab1_apply, tap cs 2 _ _ p q (2 : Fin 4) rfl]; rfl
  | ⟨2, _⟩ =>
    refine (concatenate_apply_piece 2 _ _ (ix3 p q (2 : Fin 4)) 2 ?_ S64x256x1 _ rfl rfl 2 ?_ (ix3 p q (0 : Fin 1)) (hi 2) rfl).trans ?_
    · show (2 : ℕ) < 4; decide
    · rfl
    · rw [shapeCast_ab_ab1_apply, tap cs 3 _ _ p q (3 : Fin 4) rfl]; rfl
  | ⟨3, _⟩ =>
    refine (concatenate_apply_piece 2 _ _ (ix3 p q (3 : Fin 4)) 3 ?_ S64x256x1 _ rfl rfl 3 ?_ (ix3 p q (0 : Fin 1)) (hi 3) rfl).trans ?_
    · show (3 : ℕ) < 4; decide
    · rfl
    · rw [shapeCast_ab_ab1_apply, shapeCast_self]; rfl

/-- The body's convolution output at (p, q) of a block. -/
theorem out_apply (x : FVec Ideal S64x256 .f32) (cs : FVec Ideal S64x256x4 .f32) (cb : FVec Ideal S256 .f32) (cw : FVec Ideal S256x4 .f32)
    (p : Fin 64) (q : Fin 256) :
    k1_pay6 (F := Ideal) x cs cb cw (ix2 p q) = silu (convSum x cs cw cb p q) := by
  unfold k1_pay6 k1_pay1 k1_pay2 k1_pay3 k1_pay4
  simp only [shapeCast_self, addf_apply, mulf_apply, vlogistic_apply]
  rw [tap cs 1 _ _ p q (1 : Fin 4) rfl, tap cs 2 _ _ p q (2 : Fin 4) rfl, tap cs 3 _ _ p q (3 : Fin 4) rfl,
    weightCol cw 0 _ _ _ _ p q (0 : Fin 4) rfl, weightCol cw 1 _ _ _ _ p q (1 : Fin 4) rfl,
    weightCol cw 2 _ _ _ _ p q (2 : Fin 4) rfl, weightCol cw 3 _ _ _ _ p q (3 : Fin 4) rfl,
    broadcastTo_1b_ab_apply, shapeCast_a_1a_apply]
  rfl

variable (V : (c : Dev nD) → (b : Ref sig .tc) → Buf (Elt Ideal) ((c : Thread nD τ).loc b))

/-- The printed index maps over the 64 points, each in terms of the point's two grid coordinates. -/
theorem idx_facts : ∀ t : Fin cfg1.N,
    win1_0.index t (0 : Fin 2) = t.val / 16 ∧ win1_0.index t (1 : Fin 2) = t.val % 16
    ∧ win1_1.index t (0 : Fin 3) = t.val / 16 ∧ win1_1.index t (1 : Fin 3) = t.val % 16 ∧ win1_1.index t (2 : Fin 3) = 0
    ∧ win1_2.index t (0 : Fin 2) = t.val % 16 ∧ win1_2.index t (1 : Fin 2) = 0
    ∧ win1_3.index t (0 : Fin 1) = t.val % 16
    ∧ win1_4.index t (0 : Fin 3) = t.val / 16 ∧ win1_4.index t (1 : Fin 3) = t.val % 16 ∧ win1_4.index t (2 : Fin 3) = 0
    ∧ win1_5.index t (0 : Fin 2) = t.val / 16 ∧ win1_5.index t (1 : Fin 2) = t.val % 16 :=
  (by decide +kernel : ∀ t : Fin grid1.N, _)

section Blocks
variable (c : Dev nD) (t : Fin cfg1.N)

/-- Each input block of point t, read at block coordinates, is its array at the global coordinates: batch row
    `64 (t / 16) + p`, channel `256 (t % 16) + q`. -/
theorem blk0 (p : Fin 64) (q : Fin 256) (P : Fin 256) (Q : Fin 4096) (hP : P.val = t.val / 16 * 64 + p.val) (hQ : Q.val = t.val % 16 * 256 + q.val) :
    iblk1 V c 0 t (ix2 p q) = V c main_v1 (ix2 P Q) := by
  obtain ⟨e0, e1, -⟩ := idx_facts t
  show V c main_v1 (((cfg1.win 0).blk t).view.emb (ix2 p q)) = _
  refine congrArg _ (funext fun a => Fin.ext ?_)
  match a with
  | ⟨0, _⟩ => show win1_0.index t (0 : Fin 2) * 64 + 1 * p.val = P.val; omega
  | ⟨1, _⟩ => show win1_0.index t (1 : Fin 2) * 256 + 1 * q.val = Q.val; omega
theorem blk1 (p : Fin 64) (q : Fin 256) (n : Fin 4) (P : Fin 256) (Q : Fin 4096) (hP : P.val = t.val / 16 * 64 + p.val) (hQ : Q.val = t.val % 16 * 256 + q.val) :
    iblk1 V c 1 t (ix3 p q n) = V c main_arg1 (ix3 P Q n) := by
  obtain ⟨-, -, e0, e1, e2, -⟩ := idx_facts t
  show V c main_arg1 (((cfg1.win 1).blk t).view.emb (ix3 p q n)) = _
  refine congrArg _ (funext fun a => Fin.ext ?_)
  match a with
  | ⟨0, _⟩ => show win1_1.index t (0 : Fin 3) * 64 + 1 * p.val = P.val; omega
  | ⟨1, _⟩ => show win1_1.index t (1 : Fin 3) * 256 + 1 * q.val = Q.val; omega
  | ⟨2, _⟩ => show win1_1.index t (2 : Fin 3) * 4 + 1 * n.val = n.val; omega
theorem blk2 (q : Fin 256) (n : Fin 4) (Q : Fin 4096) (hQ : Q.val = t.val % 16 * 256 + q.val) :
    iblk1 V c 2 t (ix2 q n) = V c main_arg6 (ix2 Q n) := by
  obtain ⟨-, -, -, -, -, e0, e1, -⟩ := idx_facts t
  show V c main_arg6 (((cfg1.win 2).blk t).view.emb (ix2 q n)) = _
  refine congrArg _ (funext fun a => Fin.ext ?_)
  match a with
  | ⟨0, _⟩ => show win1_2.index t (0 : Fin 2) * 256 + 1 * q.val = Q.val; omega
  | ⟨1, _⟩ => show win1_2.index t (1 : Fin 2) * 4 + 1 * n.val = n.val; omega
theorem blk3 (q : Fin 256) (Q : Fin 4096) (hQ : Q.val = t.val % 16 * 256 + q.val) :
    iblk1 V c 3 t (ix1 q) = V c main_arg7 (ix1 Q) := by
  obtain ⟨-, -, -, -, -, -, -, e0, -⟩ := idx_facts t
  show V c main_arg7 (((cfg1.win 3).blk t).view.emb (ix1 q)) = _
  refine congrArg _ (funext fun a => Fin.ext ?_)
  match a with
  | ⟨0, _⟩ => show win1_3.index t (0 : Fin 1) * 256 + 1 * q.val = Q.val; omega

end Blocks

/-- What point t writes back to the window is block t of the new window of the arrays the region finds. -/
theorem flushed4_eq (c : Dev nD) (t : Fin cfg1.N) :
    (dat1 V c).flushed 4 t = ((cfg1.win 4).blk t).view.read (Elt Ideal) (convNew (V c main_v1) (V c main_arg1)) := by
  show (cfg1.win 4).cut (grid1.coords t) ((dat1 V c).after 4 t) = _
  rw [after1_4]
  unfold out1_4
  rw [View.canon_unit_zero hz3]
  simp only [View.ld_unit_zero (S := S64x256x4) hz3, View.ld_unit_zero (S := S64x256) hz2]
  have F := idx_facts t
  funext j
  obtain ⟨p, q, n, rfl⟩ : ∃ (p : Fin 64) (q : Fin 256) (n : Fin 4), j = ix3 p q n := ⟨j 0, j 1, j 2, eq_ix3 j⟩
  show k1_pay5 (F := Ideal) (iblk1 V c 0 t) (iblk1 V c 1 t) (ix3 p q n)
    = convNew (V c main_v1) (V c main_arg1) (((cfg1.win 4).blk t).view.emb (ix3 p q n))
  refine (new_apply _ _ p q n).trans ?_
  have hP : ((((cfg1.win 4).blk t).view.emb (ix3 p q n)) 0).val = t.val / 16 * 64 + p.val := by
    show win1_4.index t (0 : Fin 3) * 64 + 1 * p.val = _; have := F.2.2.2.2.2.2.2.2.1; omega
  have hQ : ((((cfg1.win 4).blk t).view.emb (ix3 p q n)) 1).val = t.val % 16 * 256 + q.val := by
    show win1_4.index t (1 : Fin 3) * 256 + 1 * q.val = _; have := F.2.2.2.2.2.2.2.2.2.1; omega
  have hN : ((((cfg1.win 4).blk t).view.emb (ix3 p q n)) 2).val = n.val := by
    show win1_4.index t (2 : Fin 3) * 4 + 1 * n.val = _; have := F.2.2.2.2.2.2.2.2.2.2.1; omega
  unfold convNew
  show (if n.val < 3 then iblk1 V c 1 t (ix3 p q ⟨(n.val + 1) % 4, _⟩) else iblk1 V c 0 t (ix2 p q)) = _
  rw [blk0 V c t p q _ _ hP hQ, blk1 V c t p q _ _ _ hP hQ]
  simp only [hN]

/-- What point t writes back to the convolution output is block t of the output of the arrays the region finds. -/
theorem flushed5_eq (c : Dev nD) (t : Fin cfg1.N) :
    (dat1 V c).flushed 5 t = ((cfg1.win 5).blk t).view.read (Elt Ideal)
      (convOut (V c main_v1) (V c main_arg1) (V c main_arg6) (V c main_arg7)) := by
  show (cfg1.win 5).cut (grid1.coords t) ((dat1 V c).after 5 t) = _
  rw [after1_5]
  unfold out1_5
  rw [View.canon_unit_zero hz2]
  simp only [View.ld_unit_zero (S := S64x256x4) hz3, View.ld_unit_zero (S := S64x256) hz2, View.ld_unit_zero (S := S256x4) hz2, View.ld_unit_zero (S := S256) hz1]
  have F := idx_facts t
  funext j
  obtain ⟨p, q, rfl⟩ : ∃ (p : Fin 64) (q : Fin 256), j = ix2 p q := ⟨j 0, j 1, eq_ix2 j⟩
  show k1_pay6 (F := Ideal) (iblk1 V c 0 t) (iblk1 V c 1 t) (iblk1 V c 3 t) (iblk1 V c 2 t) (ix2 p q)
    = convOut (V c main_v1) (V c main_arg1) (V c main_arg6) (V c main_arg7) (((cfg1.win 5).blk t).view.emb (ix2 p q))
  refine (out_apply _ _ _ _ p q).trans ?_
  have hP : ((((cfg1.win 5).blk t).view.emb (ix2 p q)) 0).val = t.val / 16 * 64 + p.val := by
    show win1_5.index t (0 : Fin 2) * 64 + 1 * p.val = _; have := F.2.2.2.2.2.2.2.2.2.2.2.1; omega
  have hQ : ((((cfg1.win 5).blk t).view.emb (ix2 p q)) 1).val = t.val % 16 * 256 + q.val := by
    show win1_5.index t (1 : Fin 2) * 256 + 1 * q.val = _; have := F.2.2.2.2.2.2.2.2.2.2.2.2; omega
  unfold convOut convSum
  rw [blk0 V c t p q _ _ hP hQ, blk1 V c t p q 1 _ _ hP hQ, blk1 V c t p q 2 _ _ hP hQ, blk1 V c t p q 3 _ _ hP hQ,
    blk2 V c t q 0 _ hQ, blk2 V c t q 1 _ hQ, blk2 V c t q 2 _ hQ, blk2 V c t q 3 _ hQ, blk3 V c t q _ hQ]

theorem mem_blk4 (t : Fin cfg1.N) (i : S256x4096x4.Idx) :
    i ∈ ((cfg1.win 4).blk t).view.set ↔ ∀ a : Fin 3, win1_4.index t a * S64x256x4.size a ≤ (i a).val ∧ (i a).val < win1_4.index t a * S64x256x4.size a + S64x256x4.size a := by
  show i ∈ ((View.whole main_v3_0).slice (win1_4.rect t)).set ↔ _
  rw [View.set_slice_whole, Rect.mem_set_unit]
  exact Iff.rfl
theorem mem_blk5 (t : Fin cfg1.N) (i : S256x4096.Idx) :
    i ∈ ((cfg1.win 5).blk t).view.set ↔ ∀ a : Fin 2, win1_5.index t a * S64x256.size a ≤ (i a).val ∧ (i a).val < win1_5.index t a * S64x256.size a + S64x256.size a := by
  show i ∈ ((View.whole main_v3_1).slice (win1_5.rect t)).set ↔ _
  rw [View.set_slice_whole, Rect.mem_set_unit]
  exact Iff.rfl

theorem cover4 (i : S256x4096x4.Idx) : ∃ t : Fin cfg1.N, (cfg1.win 4).flush t = true ∧ i ∈ ((cfg1.win 4).blk t).view.set := by
  have hi0 : (i 0).val < 256 := (i 0).isLt
  have hi1 : (i 1).val < 4096 := (i 1).isLt
  have hi2 : (i 2).val < 4 := (i 2).isLt
  have ht : (i 0).val / 64 * 16 + (i 1).val / 256 < 64 := by omega
  refine ⟨⟨(i 0).val / 64 * 16 + (i 1).val / 256, ht⟩, flush1_4 _, ?_⟩
  rw [mem_blk4]
  have F := idx_facts ⟨(i 0).val / 64 * 16 + (i 1).val / 256, ht⟩
  have f0 := F.2.2.2.2.2.2.2.2.1
  have f1 := F.2.2.2.2.2.2.2.2.2.1
  have f2 := F.2.2.2.2.2.2.2.2.2.2.1
  intro a
  match a with
  | ⟨0, _⟩ => show win1_4.index _ (0 : Fin 3) * 64 ≤ (i 0).val ∧ (i 0).val < win1_4.index _ (0 : Fin 3) * 64 + 64; rw [f0]; show ((i 0).val / 64 * 16 + (i 1).val / 256) / 16 * 64 ≤ (i 0).val ∧ (i 0).val < ((i 0).val / 64 * 16 + (i 1).val / 256) / 16 * 64 + 64; omega
  | ⟨1, _⟩ => show win1_4.index _ (1 : Fin 3) * 256 ≤ (i 1).val ∧ (i 1).val < win1_4.index _ (1 : Fin 3) * 256 + 256; rw [f1]; show ((i 0).val / 64 * 16 + (i 1).val / 256) % 16 * 256 ≤ (i 1).val ∧ (i 1).val < ((i 0).val / 64 * 16 + (i 1).val / 256) % 16 * 256 + 256; omega
  | ⟨2, _⟩ => show win1_4.index _ (2 : Fin 3) * 4 ≤ (i 2).val ∧ (i 2).val < win1_4.index _ (2 : Fin 3) * 4 + 4; rw [f2]; omega
theorem cover5 (i : S256x4096.Idx) : ∃ t : Fin cfg1.N, (cfg1.win 5).flush t = true ∧ i ∈ ((cfg1.win 5).blk t).view.set := by
  have hi0 : (i 0).val < 256 := (i 0).isLt
  have hi1 : (i 1).val < 4096 := (i 1).isLt
  have ht : (i 0).val / 64 * 16 + (i 1).val / 256 < 64 := by omega
  refine ⟨⟨(i 0).val / 64 * 16 + (i 1).val / 256, ht⟩, flush1_5 _, ?_⟩
  rw [mem_blk5]
  have F := idx_facts ⟨(i 0).val / 64 * 16 + (i 1).val / 256, ht⟩
  have f0 := F.2.2.2.2.2.2.2.2.2.2.2.1
  have f1 := F.2.2.2.2.2.2.2.2.2.2.2.2
  intro a
  match a with
  | ⟨0, _⟩ => show win1_5.index _ (0 : Fin 2) * 64 ≤ (i 0).val ∧ (i 0).val < win1_5.index _ (0 : Fin 2) * 64 + 64; rw [f0]; show ((i 0).val / 64 * 16 + (i 1).val / 256) / 16 * 64 ≤ (i 0).val ∧ (i 0).val < ((i 0).val / 64 * 16 + (i 1).val / 256) / 16 * 64 + 64; omega
  | ⟨1, _⟩ => show win1_5.index _ (1 : Fin 2) * 256 ≤ (i 1).val ∧ (i 1).val < win1_5.index _ (1 : Fin 2) * 256 + 256; rw [f1]; show ((i 0).val / 64 * 16 + (i 1).val / 256) % 16 * 256 ≤ (i 1).val ∧ (i 1).val < ((i 0).val / 64 * 16 + (i 1).val / 256) % 16 * 256 + 256; omega

/-- The region's two output arrays when it ends. -/
theorem final4 (c : Dev nD) : (dat1 V c).arrAt 4 cfg1.N = convNew (V c main_v1) (V c main_arg1) :=
  (dat1 V c).arrAt_eq_of_cover 4 _ (fun t _ => flushed4_eq V c t) cover4
theorem final5 (c : Dev nD) : (dat1 V c).arrAt 5 cfg1.N = convOut (V c main_v1) (V c main_arg1) (V c main_arg6) (V c main_arg7) :=
  (dat1 V c).arrAt_eq_of_cover 5 _ (fun t _ => flushed5_eq V c t) cover5

end Cert.KernelIdeal.Conv

end
-- ==== Proof.SsmValue.lean ====
/-
  Region 2, the state update and the gated output: what its two output arrays hold when the region ends.

  The grid has 8 × 16 points; point (I, J) works on batch rows 32 I … 32 I + 31 and channels 256 J … 256 J + 255.
  It sees that block of the old state, of the convolution output, of δ and of z, rows 32 I … of B and C (all 16
  state columns), rows 256 J … of the log-rates and entries 256 J … of D.  The body is pointwise in (b, d, n) but
  for one sum over the state axis: the new state is exp (δ · (0 - exp a)) · s + (δ · x) · B, spread over the axes
  each operand lacks, and the gated output sums the new state against C over n, adds D · x and multiplies by
  z · σ(z).  So each block is the restriction of `stateNew` (of `gated`) of the arrays the region finds, and the
  blocks tile both output arrays.
-/
import proofs.«149866_j84473416778379_2_alg».proof.Proof.Gen.KernelIdeal.Frame
import proofs.«149866_j84473416778379_2_alg».proof.Proof.Spec
import proofs.«149866_j84473416778379_2_alg».proof.Proof.LibTrailing
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Ssm

open Idealize.ShloMosaic Idealize.ShloMosaic.TcCoe Idealize.SL.Sem Idealize.ShloMosaic.ValueIdx
open Idealize.ShloMosaic.Pipeline (Dat)
open Cert.KernelIdeal Cert.KernelIdeal.Gen Cert.Step Cert.LibTrailing

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The exponential and the logistic function of a vector, read at an index. -/
theorem vexp_apply {s : Shape} {φ : FTy} (v : FVec Ideal s φ) (i : s.Idx) : exp v i = Ideal.exp (v i) := rfl
theorem vlogistic_apply {s : Shape} {φ : FTy} (v : FVec Ideal s φ) (i : s.Idx) : logistic v i = Ideal.logistic (v i) := rfl

/-- The body's new state at (p, q, n) of a block. -/
theorem state_apply (ss : FVec Ideal S32x256x16 .f32) (xc δ : FVec Ideal S32x256 .f32) (B : FVec Ideal S32x16 .f32)
    (alog : FVec Ideal S256x16 .f32) (p : Fin 32) (q : Fin 256) (n : Fin 16) :
    k2_pay4 (F := Ideal) ss xc δ B alog (ix3 p q n) = stateAt ss xc δ B alog p q n := by
  unfold k2_pay4 k2_pay2
  simp only [shapeCast_self, addf_apply, mulf_apply, vexp_apply]
  rw [broadcastTo_ab1_abc_apply, broadcastTo_1bc_abc_apply, broadcastTo_ab1_abc_apply, broadcastTo_a1c_abc_apply]
  rw [shapeCast_ab_ab1_apply, shapeCast_ab_1ab_apply, shapeCast_ab_ab1_apply, shapeCast_ac_a1c_apply]
  simp only [mulf_apply, subf_apply, vexp_apply, broadcast_apply]
  unfold stateAt
  rw [show (Scalar.ofBits (F := Ideal) .f32 0x00000000#32 : EReal) = 0 from Ideal.ofBits_zero_f32]

/-- The body's gated output at (p, q) of a block. -/
theorem gated_apply (ss : FVec Ideal S32x256x16 .f32) (xc δ : FVec Ideal S32x256 .f32) (B C : FVec Ideal S32x16 .f32)
    (z : FVec Ideal S32x256 .f32) (alog : FVec Ideal S256x16 .f32) (D : FVec Ideal S256 .f32) (p : Fin 32) (q : Fin 256) :
    k2_pay1 (F := Ideal) (k2_pay2 xc) (k2_pay3 z) (k2_pay5 ss xc δ B C alog) (k2_pay6 D) (ix2 p q)
      = gatedAt ss xc δ B C z alog D p q := by
  unfold k2_pay1 k2_pay2 k2_pay3 k2_pay5 k2_pay6
  simp only [shapeCast_self, addf_apply, mulf_apply, vlogistic_apply]
  rw [broadcastTo_1b_ab_apply, shapeCast_a_1a_apply]
  unfold gatedAt silu
  congr 2
  refine (Ideal.multiReduction_add_single _ 0x00000000#32 reduces_S32x256x16_S32x256 (.inl rfl) rfl (ix2 p q)).trans ?_
  show ∑ n : Fin 16, _ = _
  refine Finset.sum_congr rfl fun n _ => ?_
  have e : reduces_S32x256x16_S32x256.lift (ix2 p q) n = ix3 p q n := funext fun a => Fin.ext (by
    match a with
    | ⟨0, _⟩ => rfl
    | ⟨1, _⟩ => rfl
    | ⟨2, _⟩ => rfl)
  rw [e, mulf_apply, state_apply, broadcastTo_a1c_abc_apply, shapeCast_ac_a1c_apply]

variable (V : (c : Dev nD) → (b : Ref sig .tc) → Buf (Elt Ideal) ((c : Thread nD τ).loc b))

/-- The printed index maps over the 128 points, each in terms of the point's two grid coordinates. -/
theorem idx_facts : ∀ t : Fin cfg2.N,
    win2_0.index t (0 : Fin 3) = t.val / 16 ∧ win2_0.index t (1 : Fin 3) = t.val % 16 ∧ win2_0.index t (2 : Fin 3) = 0
    ∧ win2_1.index t (0 : Fin 2) = t.val / 16 ∧ win2_1.index t (1 : Fin 2) = t.val % 16
    ∧ win2_2.index t (0 : Fin 2) = t.val / 16 ∧ win2_2.index t (1 : Fin 2) = t.val % 16
    ∧ win2_3.index t (0 : Fin 2) = t.val / 16 ∧ win2_3.index t (1 : Fin 2) = 0
    ∧ win2_4.index t (0 : Fin 2) = t.val / 16 ∧ win2_4.index t (1 : Fin 2) = 0
    ∧ win2_5.index t (0 : Fin 2) = t.val / 16 ∧ win2_5.index t (1 : Fin 2) = t.val % 16
    ∧ win2_6.index t (0 : Fin 2) = t.val % 16 ∧ win2_6.index t (1 : Fin 2) = 0
    ∧ win2_7.index t (0 : Fin 1) = t.val % 16
    ∧ win2_8.index t (0 : Fin 3) = t.val / 16 ∧ win2_8.index t (1 : Fin 3) = t.val % 16 ∧ win2_8.index t (2 : Fin 3) = 0
    ∧ win2_9.index t (0 : Fin 2) = t.val / 16 ∧ win2_9.index t (1 : Fin 2) = t.val % 16 :=
  (by decide +kernel : ∀ t : Fin grid2.N, _)

section Blocks
variable (c : Dev nD) (t : Fin cfg2.N)

/-- Each input block of point t, read at block coordinates, is its array at the global coordinates: batch row
    `32 (t / 16) + p`, channel `256 (t % 16) + q`, state column `n`.  The global coordinates are given as any
    `P`, `Q` with those values. -/
theorem blk0 (p : Fin 32) (q : Fin 256) (n : Fin 16) (P : Fin 256) (Q : Fin 4096) (hP : P.val = t.val / 16 * 32 + p.val) (hQ : Q.val = t.val % 16 * 256 + q.val) :
    iblk2 V c 0 t (ix3 p q n) = V c main_arg2 (ix3 P Q n) := by
  obtain ⟨e0, e1, e2, -⟩ := idx_facts t
  show V c main_arg2 (((cfg2.win 0).blk t).view.emb (ix3 p q n)) = _
  refine congrArg _ (funext fun a => Fin.ext ?_)
  match a with
  | ⟨0, _⟩ => show win2_0.index t (0 : Fin 3) * 32 + 1 * p.val = P.val; omega
  | ⟨1, _⟩ => show win2_0.index t (1 : Fin 3) * 256 + 1 * q.val = Q.val; omega
  | ⟨2, _⟩ => show win2_0.index t (2 : Fin 3) * 16 + 1 * n.val = n.val; omega
theorem blk1 (p : Fin 32) (q : Fin 256) (P : Fin 256) (Q : Fin 4096) (hP : P.val = t.val / 16 * 32 + p.val) (hQ : Q.val = t.val % 16 * 256 + q.val) :
    iblk2 V c 1 t (ix2 p q) = V c main_v3_1 (ix2 P Q) := by
  obtain ⟨-, -, -, e0, e1, -⟩ := idx_facts t
  show V c main_v3_1 (((cfg2.win 1).blk t).view.emb (ix2 p q)) = _
  refine congrArg _ (funext fun a => Fin.ext ?_)
  match a with
  | ⟨0, _⟩ => show win2_1.index t (0 : Fin 2) * 32 + 1 * p.val = P.val; omega
  | ⟨1, _⟩ => show win2_1.index t (1 : Fin 2) * 256 + 1 * q.val = Q.val; omega
theorem blk2 (p : Fin 32) (q : Fin 256) (P : Fin 256) (Q : Fin 4096) (hP : P.val = t.val / 16 * 32 + p.val) (hQ : Q.val = t.val % 16 * 256 + q.val) :
    iblk2 V c 2 t (ix2 p q) = V c main_v14 (ix2 P Q) := by
  obtain ⟨-, -, -, -, -, e0, e1, -⟩ := idx_facts t
  show V c main_v14 (((cfg2.win 2).blk t).view.emb (ix2 p q)) = _
  refine congrArg _ (funext fun a => Fin.ext ?_)
  match a with
  | ⟨0, _⟩ => show win2_2.index t (0 : Fin 2) * 32 + 1 * p.val = P.val; omega
  | ⟨1, _⟩ => show win2_2.index t (1 : Fin 2) * 256 + 1 * q.val = Q.val; omega
theorem blk3 (p : Fin 32) (n : Fin 16) (P : Fin 256) (hP : P.val = t.val / 16 * 32 + p.val) :
    iblk2 V c 3 t (ix2 p n) = V c main_v7 (ix2 P n) := by
  obtain ⟨-, -, -, -, -, -, -, e0, e1, -⟩ := idx_facts t
  show V c main_v7 (((cfg2.win 3).blk t).view.emb (ix2 p n)) = _
  refine congrArg _ (funext fun a => Fin.ext ?_)
  match a with
  | ⟨0, _⟩ => show win2_3.index t (0 : Fin 2) * 32 + 1 * p.val = P.val; omega
  | ⟨1, _⟩ => show win2_3.index t (1 : Fin 2) * 16 + 1 * n.val = n.val; omega
theorem blk4 (p : Fin 32) (n : Fin 16) (P : Fin 256) (hP : P.val = t.val / 16 * 32 + p.val) :
    iblk2 V c 4 t (ix2 p n) = V c main_v8 (ix2 P n) := by
  obtain ⟨-, -, -, -, -, -, -, -, -, e0, e1, -⟩ := idx_facts t
  show V c main_v8 (((cfg2.win 4).blk t).view.emb (ix2 p n)) = _
  refine congrArg _ (funext fun a => Fin.ext ?_)
  match a with
  | ⟨0, _⟩ => show win2_4.index t (0 : Fin 2) * 32 + 1 * p.val = P.val; omega
  | ⟨1, _⟩ => show win2_4.index t (1 : Fin 2) * 16 + 1 * n.val = n.val; omega
theorem blk5 (p : Fin 32) (q : Fin 256) (P : Fin 256) (Q : Fin 4096) (hP : P.val = t.val / 16 * 32 + p.val) (hQ : Q.val = t.val % 16 * 256 + q.val) :
    iblk2 V c 5 t (ix2 p q) = V c main_v2 (ix2 P Q) := by
  obtain ⟨-, -, -, -, -, -, -, -, -, -, -, e0, e1, -⟩ := idx_facts t
  show V c main_v2 (((cfg2.win 5).blk t).view.emb (ix2 p q)) = _
  refine congrArg _ (funext fun a => Fin.ext ?_)
  match a with
  | ⟨0, _⟩ => show win2_5.index t (0 : Fin 2) * 32 + 1 * p.val = P.val; omega
  | ⟨1, _⟩ => show win2_5.index t (1 : Fin 2) * 256 + 1 * q.val = Q.val; omega
theorem blk6 (q : Fin 256) (n : Fin 16) (Q : Fin 4096) (hQ : Q.val = t.val % 16 * 256 + q.val) :
    iblk2 V c 6 t (ix2 q n) = V c main_arg11 (ix2 Q n) := by
  obtain ⟨-, -, -, -, -, -, -, -, -, -, -, -, -, e0, e1, -⟩ := idx_facts t
  show V c main_arg11 (((cfg2.win 6).blk t).view.emb (ix2 q n)) = _
  refine congrArg _ (funext fun a => Fin.ext ?_)
  match a with
  | ⟨0, _⟩ => show win2_6.index t (0 : Fin 2) * 256 + 1 * q.val = Q.val; omega
  | ⟨1, _⟩ => show win2_6.index t (1 : Fin 2) * 16 + 1 * n.val = n.val; omega
theorem blk7 (q : Fin 256) (Q : Fin 4096) (hQ : Q.val = t.val % 16 * 256 + q.val) :
    iblk2 V c 7 t (ix1 q) = V c main_arg12 (ix1 Q) := by
  obtain ⟨-, -, -, -, -, -, -, -, -, -, -, -, -, -, -, e0, -⟩ := idx_facts t
  show V c main_arg12 (((cfg2.win 7).blk t).view.emb (ix1 q)) = _
  refine congrArg _ (funext fun a => Fin.ext ?_)
  match a with
  | ⟨0, _⟩ => show win2_7.index t (0 : Fin 1) * 256 + 1 * q.val = Q.val; omega

end Blocks

/-- The new state of a block is the new state of the arrays at the global coordinates. -/
theorem stateAt_blocks (c : Dev nD) (t : Fin cfg2.N) (p : Fin 32) (q : Fin 256) (n : Fin 16) (P : Fin 256) (Q : Fin 4096)
    (hP : P.val = t.val / 16 * 32 + p.val) (hQ : Q.val = t.val % 16 * 256 + q.val) :
    stateAt (iblk2 V c 0 t) (iblk2 V c 1 t) (iblk2 V c 2 t) (iblk2 V c 3 t) (iblk2 V c 6 t) p q n
      = stateAt (V c main_arg2) (V c main_v3_1) (V c main_v14) (V c main_v7) (V c main_arg11) P Q n := by
  unfold stateAt
  rw [blk0 V c t p q n P Q hP hQ, blk1 V c t p q P Q hP hQ, blk2 V c t p q P Q hP hQ, blk3 V c t p n P hP, blk6 V c t q n Q hQ]

/-- What point t writes back to the state is block t of the new state of the arrays the region finds. -/
theorem flushed8_eq (c : Dev nD) (t : Fin cfg2.N) :
    (dat2 V c).flushed 8 t = ((cfg2.win 8).blk t).view.read (Elt Ideal)
      (stateNew (V c main_arg2) (V c main_v3_1) (V c main_v14) (V c main_v7) (V c main_arg11)) := by
  show (cfg2.win 8).cut (grid2.coords t) ((dat2 V c).after 8 t) = _
  rw [after2_8]
  unfold out2_8
  rw [View.canon_unit_zero hz3]
  simp only [View.ld_unit_zero (S := S32x256x16) hz3, View.ld_unit_zero (S := S32x256) hz2, View.ld_unit_zero (S := S32x16) hz2, View.ld_unit_zero (S := S256x16) hz2]
  have F := idx_facts t
  funext j
  obtain ⟨p, q, n, rfl⟩ : ∃ (p : Fin 32) (q : Fin 256) (n : Fin 16), j = ix3 p q n := ⟨j 0, j 1, j 2, eq_ix3 j⟩
  show k2_pay4 (F := Ideal) (iblk2 V c 0 t) (iblk2 V c 1 t) (iblk2 V c 2 t) (iblk2 V c 3 t) (iblk2 V c 6 t) (ix3 p q n)
    = stateNew (V c main_arg2) (V c main_v3_1) (V c main_v14) (V c main_v7) (V c main_arg11) (((cfg2.win 8).blk t).view.emb (ix3 p q n))
  refine (state_apply _ _ _ _ _ p q n).trans ?_
  unfold stateNew
  have hn : (((cfg2.win 8).blk t).view.emb (ix3 p q n)) 2 = n := Fin.ext (by
    show win2_8.index t (2 : Fin 3) * 16 + 1 * n.val = n.val
    have := F.2.2.2.2.2.2.2.2.2.2.2.2.2.2.2.2.2.2.1; omega)
  rw [hn]
  exact stateAt_blocks V c t p q n _ _
    (by show win2_8.index t (0 : Fin 3) * 32 + 1 * p.val = _; have := F.2.2.2.2.2.2.2.2.2.2.2.2.2.2.2.2.1; omega)
    (by show win2_8.index t (1 : Fin 3) * 256 + 1 * q.val = _; have := F.2.2.2.2.2.2.2.2.2.2.2.2.2.2.2.2.2.1; omega)

/-- What point t writes back to the gated output is block t of the gated output of the arrays the region finds. -/
theorem flushed9_eq (c : Dev nD) (t : Fin cfg2.N) :
    (dat2 V c).flushed 9 t = ((cfg2.win 9).blk t).view.read (Elt Ideal)
      (gated (V c main_arg2) (V c main_v3_1) (V c main_v14) (V c main_v7) (V c main_v8) (V c main_v2) (V c main_arg11) (V c main_arg12)) := by
  show (cfg2.win 9).cut (grid2.coords t) ((dat2 V c).after 9 t) = _
  rw [after2_9]
  unfold out2_9
  rw [View.canon_unit_zero hz2]
  simp only [View.ld_unit_zero (S := S32x256x16) hz3, View.ld_unit_zero (S := S32x256) hz2, View.ld_unit_zero (S := S32x16) hz2, View.ld_unit_zero (S := S256x16) hz2, View.ld_unit_zero (S := S256) hz1]
  have F := idx_facts t
  funext j
  obtain ⟨p, q, rfl⟩ : ∃ (p : Fin 32) (q : Fin 256), j = ix2 p q := ⟨j 0, j 1, eq_ix2 j⟩
  show k2_pay1 (F := Ideal) (k2_pay2 (iblk2 V c 1 t)) (k2_pay3 (iblk2 V c 5 t)) (k2_pay5 (iblk2 V c 0 t) (iblk2 V c 1 t) (iblk2 V c 2 t) (iblk2 V c 3 t) (iblk2 V c 4 t) (iblk2 V c 6 t)) (k2_pay6 (iblk2 V c 7 t)) (ix2 p q)
    = gated (V c main_arg2) (V c main_v3_1) (V c main_v14) (V c main_v7) (V c main_v8) (V c main_v2) (V c main_arg11) (V c main_arg12) (((cfg2.win 9).blk t).view.emb (ix2 p q))
  refine (gated_apply _ _ _ _ _ _ _ _ p q).trans ?_
  unfold gated gatedAt
  have hP : ((((cfg2.win 9).blk t).view.emb (ix2 p q)) 0).val = t.val / 16 * 32 + p.val := by
    show win2_9.index t (0 : Fin 2) * 32 + 1 * p.val = _; have := F.2.2.2.2.2.2.2.2.2.2.2.2.2.2.2.2.2.2.2.1; omega
  have hQ : ((((cfg2.win 9).blk t).view.emb (ix2 p q)) 1).val = t.val % 16 * 256 + q.val := by
    show win2_9.index t (1 : Fin 2) * 256 + 1 * q.val = _; have := F.2.2.2.2.2.2.2.2.2.2.2.2.2.2.2.2.2.2.2.2; omega
  rw [blk1 V c t p q _ _ hP hQ, blk5 V c t p q _ _ hP hQ, blk7 V c t q _ hQ]
  refine congrArg₂ (fun a b : EReal => a * b) (congrArg₂ (fun a b : EReal => a + b) (Finset.sum_congr rfl fun n _ => ?_) rfl) rfl
  rw [stateAt_blocks V c t p q n _ _ hP hQ, blk4 V c t p n _ hP]

/-- An index is in point t's block iff each coordinate is in the block's range on its axis. -/
theorem mem_blk8 (t : Fin cfg2.N) (i : S256x4096x16.Idx) :
    i ∈ ((cfg2.win 8).blk t).view.set ↔ ∀ a : Fin 3, win2_8.index t a * S32x256x16.size a ≤ (i a).val ∧ (i a).val < win2_8.index t a * S32x256x16.size a + S32x256x16.size a := by
  show i ∈ ((View.whole main_v15_0).slice (win2_8.rect t)).set ↔ _
  rw [View.set_slice_whole, Rect.mem_set_unit]
  exact Iff.rfl
theorem mem_blk9 (t : Fin cfg2.N) (i : S256x4096.Idx) :
    i ∈ ((cfg2.win 9).blk t).view.set ↔ ∀ a : Fin 2, win2_9.index t a * S32x256.size a ≤ (i a).val ∧ (i a).val < win2_9.index t a * S32x256.size a + S32x256.size a := by
  show i ∈ ((View.whole main_v15_1).slice (win2_9.rect t)).set ↔ _
  rw [View.set_slice_whole, Rect.mem_set_unit]
  exact Iff.rfl

/-- Every index of either output is in the block of the point its batch row and channel fall in. -/
theorem cover8 (i : S256x4096x16.Idx) : ∃ t : Fin cfg2.N, (cfg2.win 8).flush t = true ∧ i ∈ ((cfg2.win 8).blk t).view.set := by
  have hi0 : (i 0).val < 256 := (i 0).isLt
  have hi1 : (i 1).val < 4096 := (i 1).isLt
  have hi2 : (i 2).val < 16 := (i 2).isLt
  have ht : (i 0).val / 32 * 16 + (i 1).val / 256 < 128 := by omega
  refine ⟨⟨(i 0).val / 32 * 16 + (i 1).val / 256, ht⟩, flush2_8 _, ?_⟩
  rw [mem_blk8]
  have F := idx_facts ⟨(i 0).val / 32 * 16 + (i 1).val / 256, ht⟩
  have f0 := F.2.2.2.2.2.2.2.2.2.2.2.2.2.2.2.2.1
  have f1 := F.2.2.2.2.2.2.2.2.2.2.2.2.2.2.2.2.2.1
  have f2 := F.2.2.2.2.2.2.2.2.2.2.2.2.2.2.2.2.2.2.1
  intro a
  match a with
  | ⟨0, _⟩ => show win2_8.index _ (0 : Fin 3) * 32 ≤ (i 0).val ∧ (i 0).val < win2_8.index _ (0 : Fin 3) * 32 + 32; rw [f0]; show ((i 0).val / 32 * 16 + (i 1).val / 256) / 16 * 32 ≤ (i 0).val ∧ (i 0).val < ((i 0).val / 32 * 16 + (i 1).val / 256) / 16 * 32 + 32; omega
  | ⟨1, _⟩ => show win2_8.index _ (1 : Fin 3) * 256 ≤ (i 1).val ∧ (i 1).val < win2_8.index _ (1 : Fin 3) * 256 + 256; rw [f1]; show ((i 0).val / 32 * 16 + (i 1).val / 256) % 16 * 256 ≤ (i 1).val ∧ (i 1).val < ((i 0).val / 32 * 16 + (i 1).val / 256) % 16 * 256 + 256; omega
  | ⟨2, _⟩ => show win2_8.index _ (2 : Fin 3) * 16 ≤ (i 2).val ∧ (i 2).val < win2_8.index _ (2 : Fin 3) * 16 + 16; rw [f2]; omega
theorem cover9 (i : S256x4096.Idx) : ∃ t : Fin cfg2.N, (cfg2.win 9).flush t = true ∧ i ∈ ((cfg2.win 9).blk t).view.set := by
  have hi0 : (i 0).val < 256 := (i 0).isLt
  have hi1 : (i 1).val < 4096 := (i 1).isLt
  have ht : (i 0).val / 32 * 16 + (i 1).val / 256 < 128 := by omega
  refine ⟨⟨(i 0).val / 32 * 16 + (i 1).val / 256, ht⟩, flush2_9 _, ?_⟩
  rw [mem_blk9]
  have F := idx_facts ⟨(i 0).val / 32 * 16 + (i 1).val / 256, ht⟩
  have f0 := F.2.2.2.2.2.2.2.2.2.2.2.2.2.2.2.2.2.2.2.1
  have f1 := F.2.2.2.2.2.2.2.2.2.2.2.2.2.2.2.2.2.2.2.2
  intro a
  match a with
  | ⟨0, _⟩ => show win2_9.index _ (0 : Fin 2) * 32 ≤ (i 0).val ∧ (i 0).val < win2_9.index _ (0 : Fin 2) * 32 + 32; rw [f0]; show ((i 0).val / 32 * 16 + (i 1).val / 256) / 16 * 32 ≤ (i 0).val ∧ (i 0).val < ((i 0).val / 32 * 16 + (i 1).val / 256) / 16 * 32 + 32; omega
  | ⟨1, _⟩ => show win2_9.index _ (1 : Fin 2) * 256 ≤ (i 1).val ∧ (i 1).val < win2_9.index _ (1 : Fin 2) * 256 + 256; rw [f1]; show ((i 0).val / 32 * 16 + (i 1).val / 256) % 16 * 256 ≤ (i 1).val ∧ (i 1).val < ((i 0).val / 32 * 16 + (i 1).val / 256) % 16 * 256 + 256; omega

/-- The region's two output arrays when it ends. -/
theorem final8 (c : Dev nD) : (dat2 V c).arrAt 8 cfg2.N
    = stateNew (V c main_arg2) (V c main_v3_1) (V c main_v14) (V c main_v7) (V c main_arg11) :=
  (dat2 V c).arrAt_eq_of_cover 8 _ (fun t _ => flushed8_eq V c t) cover8
theorem final9 (c : Dev nD) : (dat2 V c).arrAt 9 cfg2.N
    = gated (V c main_arg2) (V c main_v3_1) (V c main_v14) (V c main_v7) (V c main_v8) (V c main_v2) (V c main_arg11) (V c main_arg12) :=
  (dat2 V c).arrAt_eq_of_cover 9 _ (fun t _ => flushed9_eq V c t) cover9

end Cert.KernelIdeal.Ssm

end
-- ==== Proof.OutProjValue.lean ====
/-
  Region 3, the output projection: what its output array holds when the region ends.

  The grid has four points; point t multiplies ALL rows of the gated array (one block, fetched once) by rows
  512 t … 512 t + 511 of the weight matrix and writes columns 512 t … 512 t + 511 of the output.  The body is one
  matrix product into a zero accumulator with both operands contracted over their second axis, so entry (p, q) of
  the block is the sum over d of y (p, d) · w (512 t + q, d): the block is the restriction of `outProj` of the two
  arrays the region finds, and the four blocks tile the output array.
-/
import proofs.«149866_j84473416778379_2_alg».proof.Proof.Gen.KernelIdeal.Frame
import proofs.«149866_j84473416778379_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.OutProj

open Idealize.ShloMosaic Idealize.ShloMosaic.TcCoe Idealize.SL.Sem Idealize.ShloMosaic.ValueIdx
open Idealize.ShloMosaic.Pipeline (Dat)
open Cert.KernelIdeal Cert.KernelIdeal.Gen Cert.Step

theorem hz : (![0, 0] : Fin 2 → Nat) = fun _ => 0 := funext fun a => by fin_cases a <;> rfl

theorem lhs0 (i : S256x512.Idx) (q : dot_S256x4096_S512x4096_S256x512_1_1_0_0_n_n.contr.Idx) : (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem lhs1 (i : S256x512.Idx) (q : dot_S256x4096_S512x4096_S256x512_1_1_0_0_n_n.contr.Idx) : (dot_S256x4096_S512x4096_S256x512_1_1_0_0_n_n.lhsIdx i q 1).val = (q ⟨0, by decide⟩).val :=
  dot_S256x4096_S512x4096_S256x512_1_1_0_0_n_n.lhsIdx_val_of_single rfl i q
theorem rhs0 (i : S256x512.Idx) (q : dot_S256x4096_S512x4096_S256x512_1_1_0_0_n_n.contr.Idx) : (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem rhs1 (i : S256x512.Idx) (q : dot_S256x4096_S512x4096_S256x512_1_1_0_0_n_n.contr.Idx) : (dot_S256x4096_S512x4096_S256x512_1_1_0_0_n_n.rhsIdx i q 1).val = (q ⟨0, by decide⟩).val :=
  dot_S256x4096_S512x4096_S256x512_1_1_0_0_n_n.rhsIdx_val_of_single rfl i q

/-- The matrix product into a zero accumulator, both operands contracted over their second axis, at (p, q): row p of
    the first against row q of the second. -/
theorem matmul_rows {φ₁ φ₂ : FTy} (l : FVec Ideal S256x4096 φ₁) (r : FVec Ideal S512x4096 φ₂) (p : Fin 256) (q : Fin 512) :
    FloatOps.matmul dot_S256x4096_S512x4096_S256x512_1_1_0_0_n_n none l r (constant S256x512 .f32 0x00000000#32) (ix2 p q) = ∑ k : Fin 4096, l (ix2 p k) * r (ix2 q k) := by
  rw [Ideal.matmul_constant_zero_apply, ← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 p q) ((contrEquiv1 dot_S256x4096_S512x4096_S256x512_1_1_0_0_n_n 4096 rfl rfl).symm k) = ix2 p k := funext fun a => Fin.ext (by
    match a with
    | ⟨0, _⟩ => exact lhs0 _ _
    | ⟨1, _⟩ => exact (lhs1 _ _).trans hk)
  have er : dot_S256x4096_S512x4096_S256x512_1_1_0_0_n_n.rhsIdx (ix2 p q) ((contrEquiv1 dot_S256x4096_S512x4096_S256x512_1_1_0_0_n_n 4096 rfl rfl).symm k) = ix2 q k := funext fun a => Fin.ext (by
    match a with
    | ⟨0, _⟩ => exact rhs0 _ _
    | ⟨1, _⟩ => exact (rhs1 _ _).trans hk)
  rw [el, er]

/-- The body's result at (p, q): row p of the first block against row q of the second. -/
theorem pay_apply (y : FVec Ideal S256x4096 .f32) (w : FVec Ideal S512x4096 .f32) (p : Fin 256) (q : Fin 512) :
    k3_pay1 (F := Ideal) y w (ix2 p q) = ∑ d : Fin 4096, y (ix2 p d) * w (ix2 q d) := by
  unfold k3_pay1
  rw [shapeCast_self]
  exact matmul_rows _ _ p q

variable (V : (c : Dev nD) → (b : Ref sig .tc) → Buf (Elt Ideal) ((c : Thread nD τ).loc b))

/-- The printed index maps over the four points: the first window never moves, the weight block's row index is the
    output block's column index, which is the point itself. -/
theorem idx_facts : ∀ t : Fin cfg3.N, win3_0.index t (0 : Fin 2) = 0 ∧ win3_0.index t (1 : Fin 2) = 0
    ∧ win3_1.index t (0 : Fin 2) = win3_2.index t (1 : Fin 2) ∧ win3_1.index t (1 : Fin 2) = 0
    ∧ win3_2.index t (0 : Fin 2) = 0 ∧ win3_2.index t (1 : Fin 2) = t.val :=
  (by decide +kernel : ∀ t : Fin grid3.N, _)

/-- What point t writes back is block t of the projection of the arrays the region finds. -/
theorem flushed_eq (c : Dev nD) (t : Fin cfg3.N) :
    (dat3 V c).flushed 2 t = ((cfg3.win 2).blk t).view.read (Elt Ideal) (outProj (V c main_v15_1) (V c main_arg5)) := by
  show (cfg3.win 2).cut (grid3.coords t) ((dat3 V c).after 2 t) = _
  rw [after3_2]
  unfold out3_2
  rw [View.canon_unit_zero hz]
  simp only [View.ld_unit_zero (S := S256x4096) hz, View.ld_unit_zero (S := S512x4096) hz]
  obtain ⟨e0, e1, e2, e3, e4, e5⟩ := idx_facts t
  funext j
  obtain ⟨p, q, rfl⟩ : ∃ (p : Fin 256) (q : Fin 512), j = ix2 p q := ⟨j 0, j 1, eq_ix2 j⟩
  show k3_pay1 (F := Ideal) (iblk3 V c 0 t) (iblk3 V c 1 t) (ix2 p q) = outProj (V c main_v15_1) (V c main_arg5) (((cfg3.win 2).blk t).view.emb (ix2 p q))
  refine (pay_apply _ _ p q).trans ?_
  unfold outProj
  refine Finset.sum_congr rfl fun d _ => ?_
  have h0 : ((cfg3.win 0).blk t).view.emb (ix2 p d) = ix2 ((((cfg3.win 2).blk t).view.emb (ix2 p q)) 0) d := by
    funext a; apply Fin.ext
    match a with
    | ⟨0, _⟩ => show win3_0.index t (0 : Fin 2) * 256 + 1 * p.val = win3_2.index t (0 : Fin 2) * 256 + 1 * p.val; omega
    | ⟨1, _⟩ => show win3_0.index t (1 : Fin 2) * 4096 + 1 * d.val = d.val; omega
  have h1 : ((cfg3.win 1).blk t).view.emb (ix2 q d) = ix2 ((((cfg3.win 2).blk t).view.emb (ix2 p q)) 1) d := by
    funext a; apply Fin.ext
    match a with
    | ⟨0, _⟩ => show win3_1.index t (0 : Fin 2) * 512 + 1 * q.val = win3_2.index t (1 : Fin 2) * 512 + 1 * q.val; omega
    | ⟨1, _⟩ => show win3_1.index t (1 : Fin 2) * 4096 + 1 * d.val = d.val; omega
  exact congrArg₂ (fun a b : EReal => a * b) (congrArg (V c main_v15_1) h0) (congrArg (V c main_arg5) h1)

/-- An index is in point t's block iff each coordinate is in the block's range on its axis. -/
theorem mem_blk (t : Fin cfg3.N) (i : S256x2048.Idx) :
    i ∈ ((cfg3.win 2).blk t).view.set ↔ ∀ a : Fin 2, win3_2.index t a * S256x512.size a ≤ (i a).val ∧ (i a).val < win3_2.index t a * S256x512.size a + S256x512.size a := by
  show i ∈ ((View.whole main_v16).slice (win3_2.rect t)).set ↔ _
  rw [View.set_slice_whole, Rect.mem_set_unit]
  exact Iff.rfl

/-- Every index of the output is in the block of the point its column falls in. -/
theorem cover (i : S256x2048.Idx) : ∃ t : Fin cfg3.N, (cfg3.win 2).flush t = true ∧ i ∈ ((cfg3.win 2).blk t).view.set := by
  have hi0 : (i 0).val < 256 := (i 0).isLt
  have hi1 : (i 1).val < 2048 := (i 1).isLt
  refine ⟨⟨(i 1).val / 512, by show (i 1).val / 512 < 4; omega⟩, flush3_2 _, ?_⟩
  rw [mem_blk]
  obtain ⟨e0, e1, e2, e3, e4, e5⟩ := idx_facts ⟨(i 1).val / 512, by show (i 1).val / 512 < 4; omega⟩
  intro a
  match a with
  | ⟨0, _⟩ => show win3_2.index _ (0 : Fin 2) * 256 ≤ (i 0).val ∧ (i 0).val < win3_2.index _ (0 : Fin 2) * 256 + 256; rw [e4]; omega
  | ⟨1, _⟩ => show win3_2.index _ (1 : Fin 2) * 512 ≤ (i 1).val ∧ (i 1).val < win3_2.index _ (1 : Fin 2) * 512 + 512; rw [e5]; show (i 1).val / 512 * 512 ≤ (i 1).val ∧ (i 1).val < (i 1).val / 512 * 512 + 512; omega

/-- The region's output array when it ends: the projection of the gated array and the weights it found. -/
theorem final (c : Dev nD) : (dat3 V c).arrAt 2 cfg3.N = outProj (V c main_v15_1) (V c main_arg5) :=
  (dat3 V c).arrAt_eq_of_cover 2 (outProj (V c main_v15_1) (V c main_arg5)) (fun t _ => flushed_eq V c t) cover

end Cert.KernelIdeal.OutProj

end
-- ==== Proof.RefSide.lean ====
/-
  The reference, stage by stage, is the same six functions.

  The reference computes the whole step with array operations: the normalized input times the transposed projection
  matrix, its two halves, the old window's last three positions joined with the new input, the window times the
  weights summed over its four positions plus the bias, through s · (1 / (1 + exp (-s))), and so on.  Each stage is
  read at an index from the generated index-by-index lemmas of the reference's run, and compared with the
  function of `Spec`: the same entries enter the same sums and products.  Where the arrangement differs — the bias
  added last after a leading zero, the three factors δ · B · x in another order, a negation written as a subtraction
  from zero, the logistic function spelt out — commutativity and associativity of + and · on the extended reals
  (and `0 - e = -e`) join them.
-/
import proofs.«149866_j84473416778379_2_alg».proof.Proof.Gen.ReferenceIdeal.Read
import proofs.«149866_j84473416778379_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Side

open Idealize.ShloMosaic Idealize.ShloMosaic.TcCoe Idealize.SL.Sem Idealize.ShloMosaic.ValueIdx
open Cert.ReferenceIdeal Cert.ReferenceIdeal.Read Cert.Step

/-- An index with the coordinates of `ix1 a` (`ix2 a b`, `ix3 a b c`) is that index. -/
theorem ix1_ext {n : Nat} (f : (⟨1, ![n]⟩ : Shape).Idx) (a : Fin n) (h0 : (f 0).val = a.val) : f = ix1 a :=
  funext fun d => Fin.ext (by match d with | ⟨0, _⟩ => exact h0)
theorem ix2_ext {n0 n1 : Nat} (f : (⟨2, ![n0, n1]⟩ : Shape).Idx) (a : Fin n0) (b : Fin n1) (h0 : (f 0).val = a.val) (h1 : (f 1).val = b.val) :
    f = ix2 a b :=
  funext fun d => Fin.ext (by match d with | ⟨0, _⟩ => exact h0 | ⟨1, _⟩ => exact h1)
theorem ix3_ext {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun d => Fin.ext (by match d with | ⟨0, _⟩ => exact h0 | ⟨1, _⟩ => exact h1 | ⟨2, _⟩ => exact h2)

/-- `s · (1 / (1 + exp (-s)))` in the host's operations is `s · σ(s)`. -/
theorem silu_host (s : EReal) :
    FloatOps.mulf (F := Ideal) (φ := .f32) s (FloatOps.hostDivf (FloatOps.ofBits .f32 0x3F800000#32)
      (FloatOps.addf (FloatOps.ofBits .f32 0x3F800000#32) (FloatOps.hostUnary .exp (FloatOps.hostNegf s)))) = silu s := by
  simp only [Ideal.mulf_def, Ideal.hostDivf_def, Ideal.addf_def, Ideal.hostUnary_exp_def, Ideal.hostNegf_def, Ideal.negf_def, Ideal.ofBits_def, one_word]
  rfl

variable (x0 : (⟨S256x2048, .f32⟩ : BufTy).Contents (Elt Ideal)) (x1 : (⟨S256x4096x4, .f32⟩ : BufTy).Contents (Elt Ideal)) (x2 : (⟨S256x4096x16, .f32⟩ : BufTy).Contents (Elt Ideal)) (x3 : (⟨S2048, .f32⟩ : BufTy).Contents (Elt Ideal))
  (x4 : (⟨S8192x2048, .f32⟩ : BufTy).Contents (Elt Ideal)) (x5 : (⟨S2048x4096, .f32⟩ : BufTy).Contents (Elt Ideal)) (x6 : (⟨S4096x4, .f32⟩ : BufTy).Contents (Elt Ideal)) (x7 : (⟨S4096, .f32⟩ : BufTy).Contents (Elt Ideal))
  (x8 : (⟨S160x4096, .f32⟩ : BufTy).Contents (Elt Ideal)) (x9 : (⟨S4096x128, .f32⟩ : BufTy).Contents (Elt Ideal)) (x10 : (⟨S4096, .f32⟩ : BufTy).Contents (Elt Ideal)) (x11 : (⟨S4096x16, .f32⟩ : BufTy).Contents (Elt Ideal)) (x12 : (⟨S4096, .f32⟩ : BufTy).Contents (Elt Ideal))

/-- The input projection. -/
theorem inProj_eq : val_main_v14 (F := Ideal) x0 x3 x4 = inProj x0 x3 x4 := by
  funext i
  rw [val_main_v14_apply]
  unfold inProj
  refine Finset.sum_congr rfl fun k _ => ?_
  simp only [val_main_v13_apply, val_main_v12_apply, val_main_v9_apply, val_main_v11_apply, val_main_v10_apply, val_main_v8_apply,
    val_main_v7_apply, val_main_v6_apply, val_main_v4_apply, val_main_v5_apply, val_main_cst_1_apply, val_main_v3_apply,
    val_main_cst_0_apply, val_main_v2_apply, val_main_v1_apply, val_main_cst_apply, val_main_v0_apply,
    Ideal.mulf_def, Ideal.addf_def, Ideal.hostDivf_def, Ideal.hostUnary_rsqrt_def, Ideal.ofBits_def, Ideal.ofBits_zero_f32, zero_add]
  unfold normed
  have e4 : ∀ j : Fin 2048, idx_main_v1 (idx_main_v2 (idx_main_v8 (lidx_main_v14 i k))) j = ix2 (i 0) j := fun j => ix2_ext _ _ _ rfl rfl
  have e3 : idx_main_v10 (idx_main_v11 (lidx_main_v14 i k)) = ix1 k := ix1_ext _ _ rfl
  have e2 : idx_main_v13 (ridx_main_v14 i k) = ix2 (i 1) k := ix2_ext _ _ _ rfl rfl
  have e1 : lidx_main_v14 i k = ix2 (i 0) k := ix2_ext _ _ _ rfl rfl
  simp only [e4, e3, e2]
  simp only [e1]
  rfl

/-- The new window. -/
theorem convNew_eq : val_main_v19 (F := Ideal) x0 x1 x3 x4 = convNew (val_main_v15 (F := Ideal) x0 x3 x4) x1 := by
  funext i
  unfold val_main_v19 convNew
  have h4 : (i 2).val < 4 := (i 2).isLt
  by_cases h : (i 2).val < 3
  · rw [if_pos h]
    refine (concatenate_pair_apply_left (s₁ := S256x4096x3) (s₂ := S256x4096x1) 2 _ _ _ i rfl (ix3 (i 0) (i 1) (⟨(i 2).val, h⟩ : Fin 3) : S256x4096x3.Idx) (fun b => by
      match b with
      | ⟨0, _⟩ => rfl
      | ⟨1, _⟩ => rfl
      | ⟨2, _⟩ => rfl)).trans ?_
    rw [val_main_v17_apply]
    exact congrArg x1 (ix3_ext _ _ _ _ rfl rfl (by show 1 + (i 2).val = ((i 2).val + 1) % 4; omega))
  · rw [if_neg h]
    refine (concatenate_pair_apply_right (s₁ := S256x4096x3) (s₂ := S256x4096x1) 2 _ _ _ i rfl rfl (ix3 (i 0) (i 1) (0 : Fin 1) : S256x4096x1.Idx) (fun b hb => by
      match b with
      | ⟨0, _⟩ => rfl
      | ⟨1, _⟩ => rfl
      | ⟨2, _⟩ => exact absurd rfl hb) (by show (0 : ℕ) + 3 = (i 2).val; omega)).trans ?_
    rw [val_main_v18_apply]
    exact congrArg _ (ix2_ext _ _ _ rfl rfl)

/-- The convolution over the new window, before the activation. -/
theorem convSum_eq (i : S256x4096.Idx) :
    val_main_v26 (F := Ideal) x0 x1 x3 x4 x6 x7 i = convSum (val_main_v15 (F := Ideal) x0 x3 x4) x1 x6 x7 (i 0) (i 1) := by
  rw [val_main_v26_apply, val_main_v25_apply, val_main_v24_apply, val_main_v23_apply, Fin.sum_univ_four]
  simp only [val_main_cst_2_apply, val_main_v22_apply, val_main_v21_apply, val_main_v20_apply, Ideal.addf_def, Ideal.mulf_def,
    Ideal.ofBits_def, Ideal.ofBits_zero_f32]
  rw [convNew_eq]
  have c0 : convNew (val_main_v15 (F := Ideal) x0 x3 x4) x1 (idx_main_v23 i 0) = x1 (ix3 (i 0) (i 1) 1) := by
    unfold convNew; rw [if_pos (by show (0 : ℕ) < 3; decide)]; exact congrArg x1 (ix3_ext _ _ _ _ rfl rfl rfl)
  have c1 : convNew (val_main_v15 (F := Ideal) x0 x3 x4) x1 (idx_main_v23 i 1) = x1 (ix3 (i 0) (i 1) 2) := by
    unfold convNew; rw [if_pos (by show (1 : ℕ) < 3; decide)]; exact congrArg x1 (ix3_ext _ _ _ _ rfl rfl rfl)
  have c2 : convNew (val_main_v15 (F := Ideal) x0 x3 x4) x1 (idx_main_v23 i 2) = x1 (ix3 (i 0) (i 1) 3) := by
    unfold convNew; rw [if_pos (by show (2 : ℕ) < 3; decide)]; exact congrArg x1 (ix3_ext _ _ _ _ rfl rfl rfl)
  have c3 : convNew (val_main_v15 (F := Ideal) x0 x3 x4) x1 (idx_main_v23 i 3) = val_main_v15 (F := Ideal) x0 x3 x4 (ix2 (i 0) (i 1)) := by
    unfold convNew; rw [if_neg (by show ¬ (3 : ℕ) < 3; decide)]; exact congrArg _ (ix2_ext _ _ _ rfl rfl)
  have w : ∀ k : Fin 4, x6 (idx_main_v20 (idx_main_v21 (idx_main_v23 i k))) = x6 (ix2 (i 1) k) := fun k => congrArg x6 (ix2_ext _ _ _ rfl rfl)
  have hb : x7 (idx_main_v24 (idx_main_v25 i)) = x7 (ix1 (i 1)) := congrArg x7 (ix1_ext _ _ rfl)
  rw [c0, c1, c2, c3, w 0, w 1, w 2, w 3, hb]
  unfold convSum
  exact bias_last _ _ _ _ _

/-- The convolution's output. -/
theorem convOut_eq : val_main_v27 (F := Ideal) x0 x1 x3 x4 x6 x7 = convOut (val_main_v15 (F := Ideal) x0 x3 x4) x1 x6 x7 := by
  funext i
  rw [val_main_v27_apply, val_main_call0_v5_apply, val_main_call0_v4_apply, val_main_call0_cst_0_apply, val_main_call0_v3_apply,
    val_main_call0_v2_apply, val_main_call0_cst_apply, val_main_call0_v1_apply, val_main_call0_v0_apply, convSum_eq]
  exact silu_host _

/-- The new recurrent state. -/
theorem stateNew_eq : val_main_v56 (F := Ideal) x0 x1 x2 x3 x4 x6 x7 x8 x9 x10 x11 = stateNew x2 (val_main_v27 (F := Ideal) x0 x1 x3 x4 x6 x7) (val_main_v38 (F := Ideal) x0 x1 x3 x4 x6 x7 x8 x9 x10) (val_main_v31 (F := Ideal) x0 x1 x3 x4 x6 x7 x8) x11 := by
  funext i
  obtain ⟨b, d, n, rfl⟩ : ∃ (b : Fin 256) (d : Fin 4096) (n : Fin 16), i = ix3 b d n := ⟨i 0, i 1, i 2, eq_ix3 i⟩
  show _ = stateAt x2 (val_main_v27 (F := Ideal) x0 x1 x3 x4 x6 x7) (val_main_v38 (F := Ideal) x0 x1 x3 x4 x6 x7 x8 x9 x10) (val_main_v31 (F := Ideal) x0 x1 x3 x4 x6 x7 x8) x11 b d n
  unfold stateAt
  simp only [val_main_v56_apply, val_main_v52_apply, val_main_v46_apply, val_main_v45_apply, val_main_v43_apply, val_main_v41_apply,
    val_main_v44_apply, val_main_v42_apply, val_main_v40_apply, val_main_v39_apply, val_main_v55_apply, val_main_v51_apply,
    val_main_v49_apply, val_main_v47_apply, val_main_v50_apply, val_main_v48_apply, val_main_v54_apply, val_main_v53_apply,
    Ideal.addf_def, Ideal.mulf_def, Ideal.hostUnary_exp_def, Ideal.hostNegf_def, Ideal.negf_def]
  have e1 : idx_main_v41 (idx_main_v43 (ix3 b d n)) = ix2 b d := ix2_ext _ _ _ rfl rfl
  have e2 : idx_main_v42 (idx_main_v44 (ix3 b d n)) = ix2 d n := ix2_ext _ _ _ rfl rfl
  have e3 : idx_main_v47 (idx_main_v49 (ix3 b d n)) = ix2 b d := ix2_ext _ _ _ rfl rfl
  have e4 : idx_main_v48 (idx_main_v50 (ix3 b d n)) = ix2 b n := ix2_ext _ _ _ rfl rfl
  have e5 : idx_main_v53 (idx_main_v54 (ix3 b d n)) = ix2 b d := ix2_ext _ _ _ rfl rfl
  rw [e1, e2, e3, e4, e5, swap_last, zero_sub_eq]

/-- The gated output. -/
theorem gated_eq : val_main_v66 (F := Ideal) x0 x1 x2 x3 x4 x6 x7 x8 x9 x10 x11 x12
    = gated x2 (val_main_v27 (F := Ideal) x0 x1 x3 x4 x6 x7) (val_main_v38 (F := Ideal) x0 x1 x3 x4 x6 x7 x8 x9 x10) (val_main_v31 (F := Ideal) x0 x1 x3 x4 x6 x7 x8) (val_main_v32 (F := Ideal) x0 x1 x3 x4 x6 x7 x8) (val_main_v16 (F := Ideal) x0 x3 x4) x11 x12 := by
  funext i
  obtain ⟨b, d, rfl⟩ : ∃ (b : Fin 256) (d : Fin 4096), i = ix2 b d := ⟨i 0, i 1, eq_ix2 i⟩
  show _ = gatedAt x2 (val_main_v27 (F := Ideal) x0 x1 x3 x4 x6 x7) (val_main_v38 (F := Ideal) x0 x1 x3 x4 x6 x7 x8 x9 x10) (val_main_v31 (F := Ideal) x0 x1 x3 x4 x6 x7 x8) (val_main_v32 (F := Ideal) x0 x1 x3 x4 x6 x7 x8) (val_main_v16 (F := Ideal) x0 x3 x4) x11 x12 b d
  unfold gatedAt
  rw [val_main_v66_apply, val_main_v65_apply, val_main_call2_v5_apply, val_main_call2_v4_apply, val_main_call2_cst_0_apply,
    val_main_call2_v3_apply, val_main_call2_v2_apply, val_main_call2_cst_apply, val_main_call2_v1_apply, val_main_call2_v0_apply,
    silu_host, val_main_v64_apply, val_main_v63_apply, val_main_v62_apply, val_main_v61_apply, val_main_v60_apply]
  simp only [val_main_cst_3_apply, val_main_v59_apply, val_main_v58_apply, val_main_v57_apply, Ideal.addf_def, Ideal.mulf_def,
    Ideal.ofBits_def, Ideal.ofBits_zero_f32, zero_add]
  rw [stateNew_eq]
  have e1 : ∀ k : Fin 16, idx_main_v60 (ix2 b d) k = ix3 b d k := fun k => ix3_ext _ _ _ _ rfl rfl rfl
  have e2 : ∀ k : Fin 16, idx_main_v57 (idx_main_v58 (idx_main_v60 (ix2 b d) k)) = ix2 b k := fun k => ix2_ext _ _ _ rfl rfl
  have e3 : idx_main_v61 (idx_main_v62 (ix2 b d)) = ix1 d := ix1_ext _ _ rfl
  simp only [e2]
  simp only [e1, e3]
  rfl

/-- The output projection. -/
theorem outProj_eq : val_main_v68 (F := Ideal) x0 x1 x2 x3 x4 x5 x6 x7 x8 x9 x10 x11 x12 = outProj (val_main_v66 (F := Ideal) x0 x1 x2 x3 x4 x6 x7 x8 x9 x10 x11 x12) x5 := by
  funext i
  rw [val_main_v68_apply]
  unfold outProj
  refine Finset.sum_congr rfl fun k _ => ?_
  rw [val_main_v67_apply]
  have e1 : lidx_main_v68 i k = ix2 (i 0) k := ix2_ext _ _ _ rfl rfl
  have e2 : idx_main_v67 (ridx_main_v68 i k) = ix2 (i 1) k := ix2_ext _ _ _ rfl rfl
  rw [e1, e2]
  rfl

end Cert.ReferenceIdeal.Side

end
-- ==== Proof.Bridge.lean ====
/-
  The idealized kernel's three results are the reference's three result functions of the arguments.

  The run of the program leaves each buffer at a fold through its segments (`WholeRun`).  Reading the fold from the
  launch on: region 0 leaves the input projection of the arguments; the host cuts it in two halves; region 1 leaves
  the new window and the convolution's output of the first half; the host's two matrix products, slices and
  softplus — the same operations, in the same order, as the reference's — give B, C and δ; region 2 leaves the new
  state and the gated output; region 3 leaves the output projection.  At each boundary the buffer's contents are
  identified with the reference's value of the same stage (`RefSide` shows each stage of the reference to be the
  same function of `Spec`), so at the end the three results agree.  No argument is ever written, so every stage reads
  the arguments as launched.
-/
import proofs.«149866_j84473416778379_2_alg».proof.Proof.WholeRun
import proofs.«149866_j84473416778379_2_alg».proof.Proof.InProjValue
import proofs.«149866_j84473416778379_2_alg».proof.Proof.ConvValue
import proofs.«149866_j84473416778379_2_alg».proof.Proof.SsmValue
import proofs.«149866_j84473416778379_2_alg».proof.Proof.OutProjValue
import proofs.«149866_j84473416778379_2_alg».proof.Proof.RefSide
import Idealize.ShloMosaic.Lib.StableHlo.Run

set_option maxRecDepth 16384

noncomputable section

open scoped BigOperators

namespace Cert.KernelIdeal.Bridge

open Idealize.ShloMosaic Idealize.ShloMosaic.TcCoe Idealize.SL.Sem Idealize.ShloMosaic.StableHlo
open Idealize.ShloMosaic.Pipeline (Dat)
open Cert.KernelIdeal Cert.KernelIdeal.Gen Cert.Step

variable (m : (ℓ : Loc nD τ sig) → Buf (Elt Ideal) ℓ) (ρ : Dev nD → PrngReg)

/-- A stretch of host operations leaves a buffer none of them writes as it was. -/
local macro "skip_host " ops:ident : tactic =>
  `(tactic| exact StableHlo.after_of_forall_not_mem _ _ (List.forall_iff_forall_mem.mp (by
      simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Buffers that pass through segments untouched -/

/-- The old window, as region 1 finds it. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by skip_host hostOps1
    _ = W0 m ρ c (Proc.devRef .tc main_arg1) := W1_of_ne m ρ c main_arg1 (by decide)
    _ = m ((c : Thread nD τ).loc main_arg1) := rfl

/-- The convolution weights, as region 1 finds them. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by skip_host hostOps1
    _ = W0 m ρ c (Proc.devRef .tc main_arg6) := W1_of_ne m ρ c main_arg6 (by decide)
    _ = m ((c : Thread nD τ).loc main_arg6) := rfl

/-- The convolution bias, as region 1 finds it. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := by skip_host hostOps1
    _ = W0 m ρ c (Proc.devRef .tc main_arg7) := W1_of_ne m ρ c main_arg7 (by decide)
    _ = m ((c : Thread nD τ).loc main_arg7) := rfl

/-- The first projection matrix, as the host operations after region 1 find it. -/
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by skip_host hostOps1
    _ = W0 m ρ c (Proc.devRef .tc main_arg8) := W1_of_ne m ρ c main_arg8 (by decide)
    _ = m ((c : Thread nD τ).loc main_arg8) := rfl

/-- The second projection matrix, likewise. -/
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := by skip_host hostOps1
    _ = W0 m ρ c (Proc.devRef .tc main_arg9) := W1_of_ne m ρ c main_arg9 (by decide)
    _ = m ((c : Thread nD τ).loc main_arg9) := rfl

/-- The second projection's bias, likewise. -/
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := by skip_host hostOps1
    _ = W0 m ρ c (Proc.devRef .tc main_arg10) := W1_of_ne m ρ c main_arg10 (by decide)
    _ = m ((c : Thread nD τ).loc main_arg10) := rfl

/-- The old state, as region 2 finds it. -/
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by skip_host hostOps2_1
    _ = W3 m ρ c (Proc.devRef .tc main_arg2) := by skip_host hostOps2
    _ = W2 m ρ c (Proc.devRef .tc main_arg2) := W3_of_ne m ρ c main_arg2 (by decide)
    _ = W1 m ρ c (Proc.devRef .tc main_arg2) := by skip_host hostOps1
    _ = W0 m ρ c (Proc.devRef .tc main_arg2) := W1_of_ne m ρ c main_arg2 (by decide)
    _ = m ((c : Thread nD τ).loc main_arg2) := rfl

/-- The log-rates, as region 2 finds them. -/
theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := by skip_host hostOps2_1
    _ = W3 m ρ c (Proc.devRef .tc main_arg11) := by skip_host hostOps2
    _ = W2 m ρ c (Proc.devRef .tc main_arg11) := W3_of_ne m ρ c main_arg11 (by decide)
    _ = W1 m ρ c (Proc.devRef .tc main_arg11) := by skip_host hostOps1
    _ = W0 m ρ c (Proc.devRef .tc main_arg11) := W1_of_ne m ρ c main_arg11 (by decide)
    _ = m ((c : Thread nD τ).loc main_arg11) := rfl

/-- The skip weights, as region 2 finds them. -/
theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := by skip_host hostOps2_1
    _ = W3 m ρ c (Proc.devRef .tc main_arg12) := by skip_host hostOps2
    _ = W2 m ρ c (Proc.devRef .tc main_arg12) := W3_of_ne m ρ c main_arg12 (by decide)
    _ = W1 m ρ c (Proc.devRef .tc main_arg12) := by skip_host hostOps1
    _ = W0 m ρ c (Proc.devRef .tc main_arg12) := W1_of_ne m ρ c main_arg12 (by decide)
    _ = m ((c : Thread nD τ).loc main_arg12) := rfl

/-- The output projection matrix, as region 3 finds it. -/
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by skip_host hostOps2_1
    _ = W3 m ρ c (Proc.devRef .tc main_arg5) := by skip_host hostOps2
    _ = W2 m ρ c (Proc.devRef .tc main_arg5) := W3_of_ne m ρ c main_arg5 (by decide)
    _ = W1 m ρ c (Proc.devRef .tc main_arg5) := by skip_host hostOps1
    _ = W0 m ρ c (Proc.devRef .tc main_arg5) := W1_of_ne m ρ c main_arg5 (by decide)
    _ = m ((c : Thread nD τ).loc main_arg5) := rfl

/-- The convolution's output is still region 1's when region 2 starts. -/
theorem W5_v3_1 (c : Dev nD) : W5 m ρ c (Proc.devRef .tc main_v3_1) = W3 m ρ c (Proc.devRef .tc main_v3_1) :=
  calc W5 m ρ c (Proc.devRef .tc main_v3_1)
    _ = W4 m ρ c (Proc.devRef .tc main_v3_1) := by skip_host hostOps2_1
    _ = W3 m ρ c (Proc.devRef .tc main_v3_1) := by skip_host hostOps2

/-- The second half of the input projection is still the host's cut when region 2 starts. -/
theorem W5_v2 (c : Dev nD) : W5 m ρ c (Proc.devRef .tc main_v2) = W2 m ρ c (Proc.devRef .tc main_v2) :=
  calc W5 m ρ c (Proc.devRef .tc main_v2)
    _ = W4 m ρ c (Proc.devRef .tc main_v2) := by skip_host hostOps2_1
    _ = W3 m ρ c (Proc.devRef .tc main_v2) := by skip_host hostOps2
    _ = W2 m ρ c (Proc.devRef .tc main_v2) := W3_of_ne m ρ c main_v2 (by decide)

/-- The new window is still region 1's at the end. -/
theorem W7_v3_0 (c : Dev nD) : W7 m ρ c (Proc.devRef .tc main_v3_0) = W3 m ρ c (Proc.devRef .tc main_v3_0) :=
  calc W7 m ρ c (Proc.devRef .tc main_v3_0)
    _ = W6 m ρ c (Proc.devRef .tc main_v3_0) := W7_of_ne m ρ c main_v3_0 (by decide)
    _ = W5 m ρ c (Proc.devRef .tc main_v3_0) := W6_of_ne m ρ c main_v3_0 (by decide)
    _ = W4 m ρ c (Proc.devRef .tc main_v3_0) := by skip_host hostOps2_1
    _ = W3 m ρ c (Proc.devRef .tc main_v3_0) := by skip_host hostOps2

/-- The new state is still region 2's at the end. -/
theorem W7_v15_0 (c : Dev nD) : W7 m ρ c (Proc.devRef .tc main_v15_0) = W6 m ρ c (Proc.devRef .tc main_v15_0) :=
  calc W7 m ρ c (Proc.devRef .tc main_v15_0)
    _ = W6 m ρ c (Proc.devRef .tc main_v15_0) := W7_of_ne m ρ c main_v15_0 (by decide)

/-! ## The stages -/

/-- Region 0 leaves the input projection. -/
theorem xz_eq (c : Dev nD) : W1 m ρ c (Proc.devRef .tc main_v0) = Cert.ReferenceIdeal.Read.val_main_v14 (F := Ideal) (m ((c : Thread nD τ).loc main_arg0)) (m ((c : Thread nD τ).loc main_arg3)) (m ((c : Thread nD τ).loc main_arg4)) :=
  (W1_arr m ρ c 3).trans ((InProj.final (V0 m ρ) c).trans (Cert.ReferenceIdeal.Side.inProj_eq _ _ _).symm)

/-- The host's two cuts of it. -/
theorem x_eq (c : Dev nD) : W2 m ρ c (Proc.devRef .tc main_v1) = Cert.ReferenceIdeal.Read.val_main_v15 (F := Ideal) (m ((c : Thread nD τ).loc main_arg0)) (m ((c : Thread nD τ).loc main_arg3)) (m ((c : Thread nD τ).loc main_arg4)) := by
  show StableHlo.after hostOps1 (W1 m ρ c) (Proc.devRef .tc main_v1) = _
  after_results
  rw [xz_eq]; rfl
theorem z_eq (c : Dev nD) : W2 m ρ c (Proc.devRef .tc main_v2) = Cert.ReferenceIdeal.Read.val_main_v16 (F := Ideal) (m ((c : Thread nD τ).loc main_arg0)) (m ((c : Thread nD τ).loc main_arg3)) (m ((c : Thread nD τ).loc main_arg4)) := by
  show StableHlo.after hostOps1 (W1 m ρ c) (Proc.devRef .tc main_v2) = _
  after_results
  rw [xz_eq]; rfl

/-- Region 1 leaves the new window and the convolution's output. -/
theorem conv_eq (c : Dev nD) : W3 m ρ c (Proc.devRef .tc main_v3_0) = Cert.ReferenceIdeal.Read.val_main_v19 (F := Ideal) (m ((c : Thread nD τ).loc main_arg0)) (m ((c : Thread nD τ).loc main_arg1)) (m ((c : Thread nD τ).loc main_arg3)) (m ((c : Thread nD τ).loc main_arg4)) := by
  refine (W3_arr m ρ c 4).trans ((Conv.final4 (V2 m ρ) c).trans ?_)
  show convNew (W2 m ρ c (Proc.devRef .tc main_v1)) (W2 m ρ c (Proc.devRef .tc main_arg1)) = _
  rw [x_eq, W2_arg1]
  exact (Cert.ReferenceIdeal.Side.convNew_eq _ _ _ _).symm
theorem xc_eq (c : Dev nD) : W3 m ρ c (Proc.devRef .tc main_v3_1) = Cert.ReferenceIdeal.Read.val_main_v27 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) := by
  refine (W3_arr m ρ c 5).trans ((Conv.final5 (V2 m ρ) c).trans ?_)
  show convOut (W2 m ρ c (Proc.devRef .tc main_v1)) (W2 m ρ c (Proc.devRef .tc main_arg1)) (W2 m ρ c (Proc.devRef .tc main_arg6)) (W2 m ρ c (Proc.devRef .tc main_arg7)) = _
  rw [x_eq, W2_arg1, W2_arg6, W2_arg7]
  exact (Cert.ReferenceIdeal.Side.convOut_eq _ _ _ _ _ _).symm

/-- The host's B and C: slices of the first matrix product. -/
theorem b_eq (c : Dev nD) : W5 m ρ c (Proc.devRef .tc main_v7) = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps2_1 (StableHlo.after hostOps2 (W3 m ρ c)) (Proc.devRef .tc main_v7) = _
  after_results
  rw [xc_eq, W3_arg8]; rfl
theorem c_eq (c : Dev nD) : W5 m ρ c (Proc.devRef .tc main_v8) = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps2_1 (StableHlo.after hostOps2 (W3 m ρ c)) (Proc.devRef .tc main_v8) = _
  after_results
  rw [xc_eq, W3_arg8]; rfl

/-- The second matrix product plus its bias, before the softplus. -/
theorem pre_eq (c : Dev nD) : W4 m ρ c (Proc.devRef .tc main_v13) = Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W3 m ρ c) (Proc.devRef .tc main_v13) = _
  after_results
  rw [xc_eq, W3_arg8, W3_arg9, W3_arg10]; rfl

/-- The softplus as the host computes it: `y` where `y - 0` is not a number, else `max y 0 + log1p (exp (-|y - 0|))`. -/
def softplusOf (y : FVec Ideal S256x4096 .f32) : FVec Ideal S256x4096 .f32 :=
  select (cmpf .une (subf y (broadcastInDim S256x4096 ![] bcast_S_S256x4096 (constant (F := Ideal) S_ .f32 0x00000000#32)))
      (subf y (broadcastInDim S256x4096 ![] bcast_S_S256x4096 (constant (F := Ideal) S_ .f32 0x00000000#32))))
    (addf y (broadcastInDim S256x4096 ![] bcast_S_S256x4096 (constant (F := Ideal) S_ .f32 0x00000000#32)))
    (addf (maximumf y (broadcastInDim S256x4096 ![] bcast_S_S256x4096 (constant (F := Ideal) S_ .f32 0x00000000#32)))
      (Host.log1p (Host.exp (Host.negf (Host.absf (subf y (broadcastInDim S256x4096 ![] bcast_S_S256x4096 (constant (F := Ideal) S_ .f32 0x00000000#32))))))))

/-- The softplus stretch, from any contents. -/
theorem softplus_after (W : Valuation τ sig (Elt Ideal)) :
    StableHlo.after hostOps2_1 W (Proc.devRef .tc main_v14) = softplusOf (W (Proc.devRef .tc main_v13)) := by
  after_results
  rfl

/-- δ. -/
theorem delta_eq (c : Dev nD) : W5 m ρ c (Proc.devRef .tc main_v14) = Cert.ReferenceIdeal.Read.val_main_v38 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W5 m ρ c (Proc.devRef .tc main_v14) = softplusOf (W4 m ρ c (Proc.devRef .tc main_v13)) from softplus_after (W4 m ρ c), pre_eq]
  rfl

/-- Region 2 leaves the new state and the gated output. -/
theorem state_eq (c : Dev nD) : W6 m ρ c (Proc.devRef .tc main_v15_0) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 8).trans ((Ssm.final8 (V5 m ρ) c).trans ?_)
  show stateNew (W5 m ρ c (Proc.devRef .tc main_arg2)) (W5 m ρ c (Proc.devRef .tc main_v3_1)) (W5 m ρ c (Proc.devRef .tc main_v14))
    (W5 m ρ c (Proc.devRef .tc main_v7)) (W5 m ρ c (Proc.devRef .tc main_arg11)) = _
  rw [W5_arg2, W5_v3_1, xc_eq, delta_eq, b_eq, W5_arg11]
  exact (Cert.ReferenceIdeal.Side.stateNew_eq _ _ _ _ _ _ _ _ _ _ _).symm
theorem y_eq (c : Dev nD) : W6 m ρ c (Proc.devRef .tc main_v15_1) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 9).trans ((Ssm.final9 (V5 m ρ) c).trans ?_)
  show gated (W5 m ρ c (Proc.devRef .tc main_arg2)) (W5 m ρ c (Proc.devRef .tc main_v3_1)) (W5 m ρ c (Proc.devRef .tc main_v14))
    (W5 m ρ c (Proc.devRef .tc main_v7)) (W5 m ρ c (Proc.devRef .tc main_v8)) (W5 m ρ c (Proc.devRef .tc main_v2))
    (W5 m ρ c (Proc.devRef .tc main_arg11)) (W5 m ρ c (Proc.devRef .tc main_arg12)) = _
  rw [W5_arg2, W5_v3_1, xc_eq, delta_eq, b_eq, c_eq, W5_v2, z_eq, W5_arg11, W5_arg12]
  exact (Cert.ReferenceIdeal.Side.gated_eq _ _ _ _ _ _ _ _ _ _ _ _).symm

/-- Region 3 leaves the output projection. -/
theorem out_eq (c : Dev nD) : W7 m ρ c (Proc.devRef .tc main_v16) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W7_arr m ρ c 2).trans ((OutProj.final (V6 m ρ) c).trans ?_)
  show outProj (W6 m ρ c (Proc.devRef .tc main_v15_1)) (W6 m ρ c (Proc.devRef .tc main_arg5)) = _
  rw [y_eq, W6_arg5]
  exact (Cert.ReferenceIdeal.Side.outProj_eq _ _ _ _ _ _ _ _ _ _ _ _ _).symm

/-! ## The three results at the end of the run -/

theorem result_conv (c : Dev nD) : W7 m ρ c (Proc.devRef .tc main_v3_0) = Cert.ReferenceIdeal.Read.val_main_v19 (F := Ideal) (m ((c : Thread nD τ).loc main_arg0)) (m ((c : Thread nD τ).loc main_arg1)) (m ((c : Thread nD τ).loc main_arg3)) (m ((c : Thread nD τ).loc main_arg4)) :=
  (W7_v3_0 m ρ c).trans (conv_eq m ρ c)
theorem result_state (c : Dev nD) : W7 m ρ c (Proc.devRef .tc main_v15_0) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W7_v15_0 m ρ c).trans (state_eq m ρ c)

end Cert.KernelIdeal.Bridge

end
-- ==== Proof.lean ====
/-
  One step of a selective state-space block: a kernel of four tiled regions against an array-level reference.

  Both programs normalize each input row by its root mean square, project it, split the projection in two halves,
  slide a four-entry window per channel and convolve it, derive δ, B and C from the convolution's output by two
  matrix products and a softplus, update the recurrent state as exp (δ · (-exp a)) · s + δ · B · x, contract it
  against C, add the skip term, gate by the second half through s · σ(s), and project out.  They return the output,
  the new window and the new state.

  The kernel tiles the batch and channel axes; no tile reads what another writes, every block is the restriction of
  one whole-array function (`Spec`), and the blocks of each region tile its output arrays (`InProjValue`,
  `ConvValue`, `SsmValue`, `OutProjValue`).  The host operations between the regions are the reference's own.  The
  reference's stages are the same functions (`RefSide`); the two differ only in the order of a five-term sum, the
  order of three factors, a negation written as `0 - e` and the logistic function spelt out, which the extended
  reals' commutative and associative + and · absorb — no entry has to be finite for that.  `Bridge` follows the
  kernel's run boundary by boundary and lands on the reference's three result functions.

  The three frames are the generated ones (the reference's is its generated run with the results dropped); the
  idealization rewrote nothing, so `preserves` is `True`.
-/
import proofs.«149866_j84473416778379_2_alg».proof.Defs
import proofs.«149866_j84473416778379_2_alg».proof.Proof.Gen.Kernel
import proofs.«149866_j84473416778379_2_alg».proof.Proof.Gen.Kernel.Skeleton
import proofs.«149866_j84473416778379_2_alg».proof.Proof.Gen.Kernel.Launch
import proofs.«149866_j84473416778379_2_alg».proof.Proof.Gen.Kernel.Points
import proofs.«149866_j84473416778379_2_alg».proof.Proof.Gen.Kernel.Frame
import proofs.«149866_j84473416778379_2_alg».proof.Proof.Gen.KernelIdeal
import proofs.«149866_j84473416778379_2_alg».proof.Proof.Gen.KernelIdeal.Skeleton
import proofs.«149866_j84473416778379_2_alg».proof.Proof.Gen.KernelIdeal.Launch
import proofs.«149866_j84473416778379_2_alg».proof.Proof.Gen.KernelIdeal.Points
import proofs.«149866_j84473416778379_2_alg».proof.Proof.Gen.KernelIdeal.Frame
import proofs.«149866_j84473416778379_2_alg».proof.Proof.Gen.ReferenceIdeal
import proofs.«149866_j84473416778379_2_alg».proof.Proof.Gen.ReferenceIdeal.Run
import proofs.«149866_j84473416778379_2_alg».proof.Proof.Gen.ReferenceIdeal.Read
import proofs.«149866_j84473416778379_2_alg».proof.Proof.Gen.Pre_finite_inputs
import proofs.«149866_j84473416778379_2_alg».proof.Proof.WholeRun
import proofs.«149866_j84473416778379_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 4000000 in
/-- From memories agreeing on the arguments both programs end with the reference's three result functions of the
    arguments: the kernel by its run read boundary by boundary, the reference by its generated run. -/
theorem algebraic : Cert.algebraic_KernelIdeal_ReferenceIdeal := by
  intro m ρ m' ρ' _ hagree
  refine ⟨fun c => Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c).1.trans (Cert.KernelIdeal.Bridge.out_eq m ρ c), (h c).2.1.trans (Cert.KernelIdeal.Bridge.result_conv m ρ c),
        (h c).2.2.1.trans (Cert.KernelIdeal.Bridge.result_state m ρ c), (h c).2.2.2⟩) (Cert.KernelIdeal.Whole.run_fold m ρ)
  · refine (θ_run Cert.ReferenceIdeal.defs _ _).mono (fun r h c => ?_) (Cert.ReferenceIdeal.Value.run (F := Ideal) m' ρ')
    obtain ⟨h68, h19, h56, hargs⟩ := h c
    obtain ⟨e0, e1, e2, e3, e4, e5, e6, e7, e8, e9, e10, e11, e12⟩ := hagree c
    refine ⟨?_, ?_, ?_, hargs⟩
    · rw [h68, Cert.ReferenceIdeal.Read.val_main_v68_eq, e0, e1, e2, e3, e4, e5, e6, e7, e8, e9, e10, e11, e12]
    · refine h19.trans ?_
      show _ = Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      rw [← e0, ← e1, ← e3, ← e4]; rfl
    · rw [h56, Cert.ReferenceIdeal.Read.val_main_v56_eq, e0, e1, e2, e3, e4, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
